-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S512x512 : Shape := ⟨2, ![512, 512]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_arg12 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S512x512 .f32) (main_arg10 : FVec F S512 .f32) (main_arg11 : FVec F S512 .f32) (main_arg12 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512 .f32) (main_arg12 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x2048x512 .f32) (main_arg1 : FVec F S4x2048x512 .f32) (main_arg2 : FVec F S4x2048x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512 .f32) (main_arg12 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S4x2048x512 : Shape := ⟨3, ![4, 2048, 512]⟩
abbrev S512x512 : Shape := ⟨2, ![512, 512]⟩
abbrev S512 : Shape := ⟨1, ![512]⟩
abbrev S8x1x64 : Shape := ⟨3, ![8, 1, 64]⟩
abbrev S32x2048x64 : Shape := ⟨3, ![32, 2048, 64]⟩
abbrev S1x1024x512 : Shape := ⟨3, ![1, 1024, 512]⟩
abbrev S64x512 : Shape := ⟨2, ![64, 512]⟩
abbrev S1x1x64 : Shape := ⟨3, ![1, 1, 64]⟩
abbrev S1x1024x64 : Shape := ⟨3, ![1, 1024, 64]⟩
abbrev S1024x512 : Shape := ⟨2, ![1024, 512]⟩
abbrev S512x64 : Shape := ⟨2, ![512, 64]⟩
abbrev S1024x64 : Shape := ⟨2, ![1024, 64]⟩
abbrev S64 : Shape := ⟨1, ![64]⟩
abbrev S1x64 : Shape := ⟨2, ![1, 64]⟩
abbrev S32x2048x2048 : Shape := ⟨3, ![32, 2048, 2048]⟩
abbrev S1x2048x64 : Shape := ⟨3, ![1, 2048, 64]⟩
abbrev S1x1024x2048 : Shape := ⟨3, ![1, 1024, 2048]⟩
abbrev S2048x64 : Shape := ⟨2, ![2048, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩
abbrev S8x4x2048x64 : Shape := ⟨4, ![8, 4, 2048, 64]⟩
abbrev S512x8x64 : Shape := ⟨3, ![512, 8, 64]⟩
abbrev S8x512x64 : Shape := ⟨3, ![8, 512, 64]⟩
abbrev S1x512 : Shape := ⟨2, ![1, 512]⟩
abbrev S8x1x1024x64 : Shape := ⟨4, ![8, 1, 1024, 64]⟩
abbrev S1x1x1024x64 : Shape := ⟨4, ![1, 1, 1024, 64]⟩
abbrev S1x512x64 : Shape := ⟨3, ![1, 512, 64]⟩

abbrev nBuf : Space → Nat
  | .hbm => 28
  | .vmem => 44
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S8x1x64, .f32⟩
  | .hbm, ⟨14, _⟩ => ⟨S32x2048x64, .f32⟩
  | .hbm, ⟨15, _⟩ => ⟨S8x1x64, .f32⟩
  | .hbm, ⟨16, _⟩ => ⟨S32x2048x64, .f32⟩
  | .hbm, ⟨17, _⟩ => ⟨S8x1x64, .f32⟩
  | .hbm, ⟨18, _⟩ => ⟨S32x2048x64, .f32⟩
  | .hbm, ⟨19, _⟩ => ⟨S32x2048x64, .f32⟩
  | .hbm, ⟨20, _⟩ => ⟨S32x2048x2048, .f32⟩
  | .hbm, ⟨21, _⟩ => ⟨S8x4x2048x64, .f32⟩
  | .hbm, ⟨22, _⟩ => ⟨S512x8x64, .f32⟩
  | .hbm, ⟨23, _⟩ => ⟨S8x512x64, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S4x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S64x512, .f32⟩
  | .local _ .vmem, ⟨3, _⟩ => ⟨S64x512, .f32⟩
  | .local _ .vmem, ⟨4, _⟩ => ⟨S1x1x64, .f32⟩
  | .local _ .vmem, ⟨5, _⟩ => ⟨S1x1x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x512, .f32⟩
  | .local _ .vmem, ⟨9, _⟩ => ⟨S1x1024x512, .f32⟩
  | .local _ .vmem, ⟨10, _⟩ => ⟨S64x512, .f32⟩
  | .local _ .vmem, ⟨11, _⟩ => ⟨S64x512, .f32⟩
  | .local _ .vmem, ⟨12, _⟩ => ⟨S1x1x64, .f32⟩
  | .local _ .vmem, ⟨13, _⟩ => ⟨S1x1x64, .f32⟩
  | .local _ .vmem, ⟨14, _⟩ => ⟨S1x1024x64, .f32⟩
  | .local _ .vmem, ⟨15, _⟩ => ⟨S1x1024x64, .f32⟩
  | .local _ .vmem, ⟨16, _⟩ => ⟨S1x1024x512, .f32⟩
  | .local _ .vmem, ⟨17, _⟩ => ⟨S1x1024x512, .f32⟩
  | .local _ .vmem, ⟨18, _⟩ => ⟨S64x512, .f32⟩
  | .local _ .vmem, ⟨19, _⟩ => ⟨S64x512, .f32⟩
  | .local _ .vmem, ⟨20, _⟩ => ⟨S1x1x64, .f32⟩
  | .local _ .vmem, ⟨21, _⟩ => ⟨S1x1x64, .f32⟩
  | .local _ .vmem, ⟨22, _⟩ => ⟨S1x1024x64, .f32⟩
  | .local _ .vmem, ⟨23, _⟩ => ⟨S1x1024x64, .f32⟩
  | .local _ .vmem, ⟨24, _⟩ => ⟨S1x1024x64, .f32⟩
  | .local _ .vmem, ⟨25, _⟩ => ⟨S1x1024x64, .f32⟩
  | .local _ .vmem, ⟨26, _⟩ => ⟨S1x2048x64, .f32⟩
  | .local _ .vmem, ⟨27, _⟩ => ⟨S1x2048x64, .f32⟩
  | .local _ .vmem, ⟨28, _⟩ => ⟨S1x2048x64, .f32⟩
  | .local _ .vmem, ⟨29, _⟩ => ⟨S1x2048x64, .f32⟩
  | .local _ .vmem, ⟨30, _⟩ => ⟨S1x1024x64, .f32⟩
  | .local _ .vmem, ⟨31, _⟩ => ⟨S1x1024x64, .f32⟩
  | .local _ .vmem, ⟨32, _⟩ => ⟨S1x1024x2048, .f32⟩
  | .local _ .vmem, ⟨33, _⟩ => ⟨S1x1024x2048, .f32⟩
  | .local _ .vmem, ⟨34, _⟩ => ⟨S8x1x1024x64, .f32⟩
  | .local _ .vmem, ⟨35, _⟩ => ⟨S8x1x1024x64, .f32⟩
  | .local _ .vmem, ⟨36, _⟩ => ⟨S8x512x64, .f32⟩
  | .local _ .vmem, ⟨37, _⟩ => ⟨S1x512, .f32⟩
  | .local _ .vmem, ⟨38, _⟩ => ⟨S1x1024x512, .f32⟩
  | .local _ .vmem, ⟨39, _⟩ => ⟨S1x1024x512, .f32⟩
  | .local _ .vmem, ⟨40, _⟩ => ⟨S1x512, .f32⟩
  | .local _ .vmem, ⟨41, _⟩ => ⟨S1x512, .f32⟩
  | .local _ .vmem, ⟨42, _⟩ => ⟨S1x1024x512, .f32⟩
  | .local _ .vmem, ⟨43, _⟩ => ⟨S1x1024x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem5_0 : DmaSem sig := 41
abbrev cc4_sem6_0 : DmaSem sig := 42
abbrev cc4_sem6_1 : DmaSem sig := 43

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  let c0_i32_0 : BitVec 32 := 0#32
  ![v1.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![4, 2, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  let c0_i32_0 : BitVec 32 := 0#32
  ![v1.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨3, ![4, 2, 8], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  let c0_i32_0 : BitVec 32 := 0#32
  ![v1.toNat, arg1.toNat, c0_i32.toNat]

abbrev stage2_0 : Fin 2 → Memref sig .tc .vmem S1x1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S64x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 2 → Memref sig .tc .vmem S1x1x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, true]

abbrev stage2_3 : Fin 2 → Memref sig .tc .vmem S1x1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨2, ![32, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1024x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![4, 2], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S8x1x1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S8x512x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x1024x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

class Facts₀ : Prop where
  shapeCasts_S512_S8x1x64 : S512.ShapeCasts S8x1x64
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  transposes_S64x512_p1_0_S512x64 : S64x512.Transposes [1, 0] S512x64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S32x2048x64_S8x4x2048x64 : S32x2048x64.ShapeCasts S8x4x2048x64
  shapeCasts_S512x512_S512x8x64 : S512x512.ShapeCasts S512x8x64
  transposes_S512x8x64_S8x512x64_1_0_2 : S512x8x64.Transposes [1, 0, 2] S8x512x64
  shapeCasts_S512_S1x512 : S512.ShapeCasts S1x512
  inb_S8x1x1024x64_S1x1x1024x64_0_0_0_0 : ∀ a, (![0, 0, 0, 0] : Fin 4 → Nat) a + S1x1x1024x64.size a ≤ S8x1x1024x64.size a
  h_S1x1x1024x64 : 0 < S1x1x1024x64.numel
  shapeCasts_S1x1x1024x64_S1024x64 : S1x1x1024x64.ShapeCasts S1024x64
  inb_S8x512x64_S1x512x64_0_0_0 : ∀ a, (![0, 0, 0] : Fin 3 → Nat) a + S1x512x64.size a ≤ S8x512x64.size a
  h_S1x512x64 : 0 < S1x512x64.numel
  shapeCasts_S1x512x64_S512x64 : S1x512x64.ShapeCasts S512x64
  transposes_S512x64_p1_0_S64x512 : S512x64.Transposes [1, 0] S64x512
  inb_S8x1x1024x64_S1x1x1024x64_1_0_0_0 : ∀ a, (![1, 0, 0, 0] : Fin 4 → Nat) a + S1x1x1024x64.size a ≤ S8x1x1024x64.size a
  inb_S8x512x64_S1x512x64_1_0_0 : ∀ a, (![1, 0, 0] : Fin 3 → Nat) a + S1x512x64.size a ≤ S8x512x64.size a
  inb_S8x1x1024x64_S1x1x1024x64_2_0_0_0 : ∀ a, (![2, 0, 0, 0] : Fin 4 → Nat) a + S1x1x1024x64.size a ≤ S8x1x1024x64.size a
  inb_S8x512x64_S1x512x64_2_0_0 : ∀ a, (![2, 0, 0] : Fin 3 → Nat) a + S1x512x64.size a ≤ S8x512x64.size a
  inb_S8x1x1024x64_S1x1x1024x64_3_0_0_0 : ∀ a, (![3, 0, 0, 0] : Fin 4 → Nat) a + S1x1x1024x64.size a ≤ S8x1x1024x64.size a
  inb_S8x512x64_S1x512x64_3_0_0 : ∀ a, (![3, 0, 0] : Fin 3 → Nat) a + S1x512x64.size a ≤ S8x512x64.size a
  inb_S8x1x1024x64_S1x1x1024x64_4_0_0_0 : ∀ a, (![4, 0, 0, 0] : Fin 4 → Nat) a + S1x1x1024x64.size a ≤ S8x1x1024x64.size a
  inb_S8x512x64_S1x512x64_4_0_0 : ∀ a, (![4, 0, 0] : Fin 3 → Nat) a + S1x512x64.size a ≤ S8x512x64.size a
  inb_S8x1x1024x64_S1x1x1024x64_5_0_0_0 : ∀ a, (![5, 0, 0, 0] : Fin 4 → Nat) a + S1x1x1024x64.size a ≤ S8x1x1024x64.size a
  inb_S8x512x64_S1x512x64_5_0_0 : ∀ a, (![5, 0, 0] : Fin 3 → Nat) a + S1x512x64.size a ≤ S8x512x64.size a
  inb_S8x1x1024x64_S1x1x1024x64_6_0_0_0 : ∀ a, (![6, 0, 0, 0] : Fin 4 → Nat) a + S1x1x1024x64.size a ≤ S8x1x1024x64.size a
  inb_S8x512x64_S1x512x64_6_0_0 : ∀ a, (![6, 0, 0] : Fin 3 → Nat) a + S1x512x64.size a ≤ S8x512x64.size a
  inb_S8x1x1024x64_S1x1x1024x64_7_0_0_0 : ∀ a, (![7, 0, 0, 0] : Fin 4 → Nat) a + S1x1x1024x64.size a ≤ S8x1x1024x64.size a
  inb_S8x512x64_S1x512x64_7_0_0 : ∀ a, (![7, 0, 0] : Fin 3 → Nat) a + S1x512x64.size a ≤ S8x512x64.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  broadcasts_S1024x1_S1024x512 : S1024x1.Broadcasts S1024x512
  shapeCasts_S1024x512_S1x1024x512 : S1024x512.ShapeCasts S1x1024x512
  dot_S1024x512_S512x64_S1024x64_1_0_0_1_n_n_wf : DotDims.WF S1024x512 S512x64 S1024x64 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  dot_S1024x64_S64x512_S1024x512_1_0_0_1_n_n_wf : DotDims.WF S1024x64 S64x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x2048x512.size a
  hwx0_0 : ∀ i : grid0.Coords, EltTy.bits .f32 = 32 ∨ (Rect.block (s := S4x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S512x512.size a
  hwx0_1 : ∀ i : grid0.Coords, EltTy.bits .f32 = 32 ∨ (Rect.block (s := S512x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S8x1x64.size a
  hwx0_2 : ∀ i : grid0.Coords, EltTy.bits .f32 = 32 ∨ (Rect.block (s := S8x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S4x2048x512.size a
  hwx1_0 : ∀ i : grid1.Coords, EltTy.bits .f32 = 32 ∨ (Rect.block (s := S4x2048x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S512x512.size a
  hwx1_1 : ∀ i : grid1.Coords, EltTy.bits .f32 = 32 ∨ (Rect.block (s := S512x512) S64x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S8x1x64.size a
  hwx1_2 : ∀ i : grid1.Coords, EltTy.bits .f32 = 32 ∨ (Rect.block (s := S8x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S32x2048x64.size a
  hwx1_3 : ∀ i : grid1.Coords, EltTy.bits .f32 = 32 ∨ (Rect.block (s := S32x2048x64) S1x1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S4x2048x512.size a
  hwx2_0 : ∀ i : grid2.Coords, EltTy.bits .f32 = 32 ∨ (Rect.block (s := S4x2048x512) S1x1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x512.size a ≤ S512x512.size a
  hwx2_1 : ∀ i : grid2.Coords, EltTy.bits .f32 = 32 ∨ (Rect.block (s := S512x512) S64x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x64.size a ≤ S8x1x64.size a
  hwx2_2 : ∀ i : grid2.Coords, EltTy.bits .f32 = 32 ∨ (Rect.block (s := S8x1x64) S1x1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x64.size a ≤ S32x2048x64.size a
  hwx2_3 : ∀ i : grid2.Coords, EltTy.bits .f32 = 32 ∨ (Rect.block (s := S32x2048x64) S1x1024x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x64.size a ≤ S32x2048x64.size a
  hwx3_0 : ∀ i : grid3.Coords, EltTy.bits .f32 = 32 ∨ (Rect.block (s := S32x2048x64) S1x1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S32x2048x64.size a
  hwx3_1 : ∀ i : grid3.Coords, EltTy.bits .f32 = 32 ∨ (Rect.block (s := S32x2048x64) S1x2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .f32 = 32 ∨ (Rect.block (s := S32x2048x64) S1x2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x64.size a ≤ S32x2048x64.size a
  hwx3_3 : ∀ i : grid3.Coords, EltTy.bits .f32 = 32 ∨ (Rect.block (s := S32x2048x64) S1x1024x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024x2048.size a ≤ S32x2048x2048.size a
  hwx3_4 : ∀ i : grid3.Coords, EltTy.bits .f32 = 32 ∨ (Rect.block (s := S32x2048x2048) S1x1024x2048.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x1x1024x64.size a ≤ S8x4x2048x64.size a
  hwx4_0 : ∀ i : grid4.Coords, EltTy.bits .f32 = 32 ∨ (Rect.block (s := S8x4x2048x64) S8x1x1024x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x512x64.size a ≤ S8x512x64.size a
  hwx4_1 : ∀ i : grid4.Coords, EltTy.bits .f32 = 32 ∨ (Rect.block (s := S8x512x64) S8x512x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024x512.size a ≤ S4x2048x512.size a
  hwx4_3 : ∀ i : grid4.Coords, EltTy.bits .f32 = 32 ∨ (Rect.block (s := S4x2048x512) S1x1024x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x512.size a ≤ S1x512.size a
  hwx4_5 : ∀ i : grid4.Coords, EltTy.bits .f32 = 32 ∨ (Rect.block (s := S1x512) S1x512.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x1024x512.size a ≤ S4x2048x512.size a
  hwx4_6 : ∀ i : grid4.Coords, EltTy.bits .f32 = 32 ∨ (Rect.block (s := S4x2048x512) S1x1024x512.size (cc4_transform_6 i) (hinb4_6 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S1x1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6_0) S1x1024x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v6_1) S1x1024x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v7) S8x1x1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S8x512x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg0) S1x1024x512.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v11) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v12) S1x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v13) S1x1024x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S4x2048x512 : Shape := ⟨3, ![4, 2048, 512]⟩
abbrev S512x512 : Shape := ⟨2, ![512, 512]⟩
abbrev S512 : Shape := ⟨1, ![512]⟩
abbrev S1x1x512 : Shape := ⟨3, ![1, 1, 512]⟩
abbrev S4x2048x8x64 : Shape := ⟨4, ![4, 2048, 8, 64]⟩
abbrev S8x4x2048x64 : Shape := ⟨4, ![8, 4, 2048, 64]⟩
abbrev S8x4x2048x2048 : Shape := ⟨4, ![8, 4, 2048, 2048]⟩
abbrev S_ : Shape := ⟨0, ![]⟩
abbrev S8x4x2048 : Shape := ⟨3, ![8, 4, 2048]⟩
abbrev S8x4x2048x1 : Shape := ⟨4, ![8, 4, 2048, 1]⟩
abbrev S4x2048 : Shape := ⟨2, ![4, 2048]⟩
abbrev S4x2048x1 : Shape := ⟨3, ![4, 2048, 1]⟩
abbrev S32x2048x2048 : Shape := ⟨3, ![32, 2048, 2048]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S4x2048x512, .f32⟩
  | .hbm, ⟨14, _⟩ => ⟨S1x1x512, .f32⟩
  | .hbm, ⟨15, _⟩ => ⟨S4x2048x512, .f32⟩
  | .hbm, ⟨16, _⟩ => ⟨S4x2048x512, .f32⟩
  | .hbm, ⟨17, _⟩ => ⟨S4x2048x8x64, .f32⟩
  | .hbm, ⟨18, _⟩ => ⟨S8x4x2048x64, .f32⟩
  | .hbm, ⟨19, _⟩ => ⟨S4x2048x512, .f32⟩
  | .hbm, ⟨20, _⟩ => ⟨S1x1x512, .f32⟩
  | .hbm, ⟨21, _⟩ => ⟨S4x2048x512, .f32⟩
  | .hbm, ⟨22, _⟩ => ⟨S4x2048x512, .f32⟩
  | .hbm, ⟨23, _⟩ => ⟨S4x2048x8x64, .f32⟩
  | .hbm, ⟨24, _⟩ => ⟨S8x4x2048x64, .f32⟩
  | .hbm, ⟨25, _⟩ => ⟨S4x2048x512, .f32⟩
  | .hbm, ⟨26, _⟩ => ⟨S1x1x512, .f32⟩
  | .hbm, ⟨27, _⟩ => ⟨S4x2048x512, .f32⟩
  | .hbm, ⟨28, _⟩ => ⟨S4x2048x512, .f32⟩
  | .hbm, ⟨29, _⟩ => ⟨S4x2048x8x64, .f32⟩
  | .hbm, ⟨30, _⟩ => ⟨S8x4x2048x64, .f32⟩
  | .hbm, ⟨31, _⟩ => ⟨S8x4x2048x2048, .f32⟩
  | .hbm, ⟨32, _⟩ => ⟨S_, .f32⟩
  | .hbm, ⟨33, _⟩ => ⟨S8x4x2048x2048, .f32⟩
  | .hbm, ⟨34, _⟩ => ⟨S8x4x2048x2048, .f32⟩
  | .hbm, ⟨35, _⟩ => ⟨S_, .f32⟩
  | .hbm, ⟨36, _⟩ => ⟨S8x4x2048, .f32⟩
  | .hbm, ⟨37, _⟩ => ⟨S_, .f32⟩
  | .hbm, ⟨38, _⟩ => ⟨S8x4x2048, .f32⟩
  | .hbm, ⟨39, _⟩ => ⟨S8x4x2048, .f32⟩
  | .hbm, ⟨40, _⟩ => ⟨S8x4x2048x1, .f32⟩
  | .hbm, ⟨41, _⟩ => ⟨S8x4x2048x2048, .f32⟩
  | .hbm, ⟨42, _⟩ => ⟨S8x4x2048x2048, .f32⟩
  | .hbm, ⟨43, _⟩ => ⟨S8x4x2048x2048, .f32⟩
  | .hbm, ⟨44, _⟩ => ⟨S_, .f32⟩
  | .hbm, ⟨45, _⟩ => ⟨S8x4x2048, .f32⟩
  | .hbm, ⟨46, _⟩ => ⟨S8x4x2048x1, .f32⟩
  | .hbm, ⟨47, _⟩ => ⟨S8x4x2048x2048, .f32⟩
  | .hbm, ⟨48, _⟩ => ⟨S8x4x2048x2048, .f32⟩
  | .hbm, ⟨49, _⟩ => ⟨S8x4x2048x64, .f32⟩
  | .hbm, ⟨50, _⟩ => ⟨S4x2048x8x64, .f32⟩
  | .hbm, ⟨51, _⟩ => ⟨S4x2048x512, .f32⟩
  | .hbm, ⟨52, _⟩ => ⟨S4x2048x512, .f32⟩
  | .hbm, ⟨53, _⟩ => ⟨S1x1x512, .f32⟩
  | .hbm, ⟨54, _⟩ => ⟨S4x2048x512, .f32⟩
  | .hbm, ⟨55, _⟩ => ⟨S4x2048x512, .f32⟩
  | .hbm, ⟨56, _⟩ => ⟨S4x2048x512, .f32⟩
  | .hbm, ⟨57, _⟩ => ⟨S_, .f32⟩
  | .hbm, ⟨58, _⟩ => ⟨S4x2048, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S4x2048x512, .f32⟩
  | .hbm, ⟨64, _⟩ => ⟨S4x2048x512, .f32⟩
  | .hbm, ⟨65, _⟩ => ⟨S4x2048x512, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S4x2048x512, .f32⟩
  | .hbm, ⟨73, _⟩ => ⟨S4x2048x512, .f32⟩
  | .hbm, ⟨74, _⟩ => ⟨S_, .f32⟩
  | .hbm, ⟨75, _⟩ => ⟨S4x2048x1, .f32⟩
  | .hbm, ⟨76, _⟩ => ⟨S4x2048x1, .f32⟩
  | .hbm, ⟨77, _⟩ => ⟨S4x2048x1, .f32⟩
  | .hbm, ⟨78, _⟩ => ⟨S4x2048x512, .f32⟩
  | .hbm, ⟨79, _⟩ => ⟨S4x2048x512, .f32⟩
  | .hbm, ⟨80, _⟩ => ⟨S1x1x512, .f32⟩
  | .hbm, ⟨81, _⟩ => ⟨S4x2048x512, .f32⟩
  | .hbm, ⟨82, _⟩ => ⟨S4x2048x512, .f32⟩
  | .hbm, ⟨83, _⟩ => ⟨S1x1x512, .f32⟩
  | .hbm, ⟨84, _⟩ => ⟨S4x2048x512, .f32⟩
  | .hbm, ⟨85, _⟩ => ⟨S4x2048x512, .f32⟩
  | .hbm, ⟨86, _⟩ => ⟨S32x2048x2048, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  shapeCasts_S4x2048x512_S4x2048x8x64 : S4x2048x512.ShapeCasts S4x2048x8x64
  transposes_S4x2048x8x64_S8x4x2048x64_2_0_1_3 : S4x2048x8x64.Transposes [2, 0, 1, 3] S8x4x2048x64
  bcast_S_S8x4x2048x2048 : S_.BroadcastsInDim S8x4x2048x2048 (![] : Fin 0 → Fin S8x4x2048x2048.rank)
  reducesTo_S8x4x2048x2048_S8x4x2048_d3 : S8x4x2048x2048.ReducesTo [3] S8x4x2048
  h_S_ : 0 < S_.numel
  bcast_S_S8x4x2048 : S_.BroadcastsInDim S8x4x2048 (![] : Fin 0 → Fin S8x4x2048.rank)
  bcast_S8x4x2048_S8x4x2048x1_0_1_2 : S8x4x2048.BroadcastsInDim S8x4x2048x1 (![0, 1, 2] : Fin 3 → Fin S8x4x2048x1.rank)
  bcast_S8x4x2048x1_S8x4x2048x2048_0_1_2_3 : S8x4x2048x1.BroadcastsInDim S8x4x2048x2048 (![0, 1, 2, 3] : Fin 4 → Fin S8x4x2048x2048.rank)
  transposes_S8x4x2048x64_S4x2048x8x64_1_2_0_3 : S8x4x2048x64.Transposes [1, 2, 0, 3] S4x2048x8x64
  shapeCasts_S4x2048x8x64_S4x2048x512 : S4x2048x8x64.ShapeCasts S4x2048x512
  reducesTo_S4x2048x512_S4x2048_d2 : S4x2048x512.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  shapeCasts_S8x4x2048x2048_S32x2048x2048 : S8x4x2048x2048.ShapeCasts S32x2048x2048
  dot_S4x2048x512_S512x512_S4x2048x512_2_1_01_0_n_n_wf : DotDims.WF S4x2048x512 S512x512 S4x2048x512 [2] [1] [0, 1] [0] [] []
  dot_S8x4x2048x64_S8x4x2048x64_S8x4x2048x2048_3_3_2_2_01_01_wf : DotDims.WF S8x4x2048x64 S8x4x2048x64 S8x4x2048x2048 [3] [3] [2] [2] [0, 1] [0, 1]
  dot_S8x4x2048x2048_S8x4x2048x64_S8x4x2048x64_3_2_2_3_01_01_wf : DotDims.WF S8x4x2048x2048 S8x4x2048x64 S8x4x2048x64 [3] [2] [2] [3] [0, 1] [0, 1]

variable [Facts₀]

def dot_S4x2048x512_S512x512_S4x2048x512_2_1_01_0_n_n : DotDims S4x2048x512 S512x512 S4x2048x512 where
  lhsContracting := [2]
  rhsContracting := [1]
  lhsNonContracting := [0, 1]
  rhsNonContracting := [0]
  lhsBatch := []
  rhsBatch := []
  wf := dot_S4x2048x512_S512x512_S4x2048x512_2_1_01_0_n_n_wf
def dot_S8x4x2048x64_S8x4x2048x64_S8x4x2048x2048_3_3_2_2_01_01 : DotDims S8x4x2048x64 S8x4x2048x64 S8x4x2048x2048 where
  lhsContracting := [3]
  rhsContracting := [3]
  lhsNonContracting := [2]
  rhsNonContracting := [2]
  lhsBatch := [0, 1]
  rhsBatch := [0, 1]
  wf := dot_S8x4x2048x64_S8x4x2048x64_S8x4x2048x2048_3_3_2_2_01_01_wf
def dot_S8x4x2048x2048_S8x4x2048x64_S8x4x2048x64_3_2_2_3_01_01 : DotDims S8x4x2048x2048 S8x4x2048x64 S8x4x2048x64 where
  lhsContracting := [3]
  rhsContracting := [2]
  lhsNonContracting := [2]
  rhsNonContracting := [3]
  lhsBatch := [0, 1]
  rhsBatch := [0, 1]
  wf := dot_S8x4x2048x2048_S8x4x2048x64_S8x4x2048x64_3_2_2_3_01_01_wf

class Facts : Prop extends Facts₀ where

variable [Facts]
-- ==== Proof.KernelRun.lean ====
/-
  The idealized kernel's run with its two results named.

  The program is five pipelined regions among short stretches of host reshapes.  The buffer contents
  at each boundary are a fold from the launch memory: a host stretch applies its operations, a region
  leaves each of its arrays at what its write-backs made of it and every other buffer as it found it.
  The last boundary's contents are `W9`; here the run is stated with both result buffers read at `W9`
  (the frame statement keeps only the arguments), so that the value of each result can be read off
  the fold afterwards.
-/
import proofs.«123167_j8134668058670_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the layer's result and the
    attention probabilities end at the last boundary's contents, and the arguments as launched. -/
theorem run_out : θ_run defs (onTc (τ := τ) (main (F := F))) ⟨m, fun _ => 0, ρ⟩ (fun r => ∀ c : Dev nD,
      r.2.mem ((c.tc : Thread nD τ).loc main_v13) = W9 m ρ c (Proc.devRef .tc main_v13)
      ∧ r.2.mem ((c.tc : Thread nD τ).loc main_v6_1) = W9 m ρ c (Proc.devRef .tc main_v6_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v13 (by decide)), h c _ (mem_uc main_v6_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.RunOut

end
-- ==== Proof.Entry.lean ====
/-
  What each region finds in its input arrays, and where the two results sit at the end.

  The buffer contents at the region boundaries are a fold from the launch memory.  Walking the fold
  back from a region's entry: a host reshape writes only its own result, a region writes only its own
  result arrays, so every input array of a region is either an argument as launched, a reshape of an
  argument, or the result array an earlier region left.
-/
import proofs.«123167_j8134668058670_2_alg».proof.Proof.Gen.KernelIdeal.Frame
import Idealize.ShloMosaic.Lib.StableHlo.Run

set_option maxRecDepth 16384

noncomputable section

namespace Cert.KEntry

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## The first projection: the query input, its weight, its bias reshaped per head -/

theorem e0_x (c : Dev nD) : V1 m ρ c main_arg0 = m ((c : Thread nD τ).loc main_arg0) := by
  show StableHlo.after hostOps0 (W0 m ρ c) (Proc.devRef .tc main_arg0) = _
  after_results

theorem e0_w (c : Dev nD) : V1 m ρ c main_arg3 = m ((c : Thread nD τ).loc main_arg3) := by
  show StableHlo.after hostOps0 (W0 m ρ c) (Proc.devRef .tc main_arg3) = _
  after_results

theorem e0_b (c : Dev nD) : V1 m ρ c main_v0 = shapeCast S8x1x64 (m ((c : Thread nD τ).loc main_arg4)) shapeCasts_S512_S8x1x64 := by
  show StableHlo.after hostOps0 (W0 m ρ c) (Proc.devRef .tc main_v0) = _
  after_results
  rfl

/-! ## The second projection: the key input, its weight, its bias reshaped per head -/

/-- Before the second stretch of host operations nothing has written an argument the first region does not stage. -/
theorem w2_arg (c : Dev nD) (b : Ref sig .tc) (hb : ∀ w, Pipeline.arrRef spec0 w ≠ b) (h0 : b ≠ main_v0) :
    W2 m ρ c (Proc.devRef .tc b) = m ((c : Thread nD τ).loc b) := by
  rw [W2_of_ne m ρ c b hb]
  show StableHlo.after hostOps0 (W0 m ρ c) (Proc.devRef .tc b) = _
  simp only [after_cons, after_nil]
  rw [reshape_result_ne (h := h0)]

theorem e1_x (c : Dev nD) : V3 m ρ c main_arg1 = m ((c : Thread nD τ).loc main_arg1) := by
  show StableHlo.after hostOps1 (W2 m ρ c) (Proc.devRef .tc main_arg1) = _
  after_results
  exact w2_arg m ρ c main_arg1 (by decide) (by decide)

theorem e1_w (c : Dev nD) : V3 m ρ c main_arg5 = m ((c : Thread nD τ).loc main_arg5) := by
  show StableHlo.after hostOps1 (W2 m ρ c) (Proc.devRef .tc main_arg5) = _
  after_results
  exact w2_arg m ρ c main_arg5 (by decide) (by decide)

theorem e1_b (c : Dev nD) : V3 m ρ c main_v2 = shapeCast S8x1x64 (m ((c : Thread nD τ).loc main_arg6)) shapeCasts_S512_S8x1x64 := by
  show StableHlo.after hostOps1 (W2 m ρ c) (Proc.devRef .tc main_v2) = _
  after_results
  rw [w2_arg m ρ c main_arg6 (by decide) (by decide)]
  rfl

/-! ## The third projection: the value input, its weight, its bias reshaped per head -/

/-- Nor has anything up to the third stretch written an argument the first two regions do not stage. -/
theorem w4_arg (c : Dev nD) (b : Ref sig .tc) (hb0 : ∀ w, Pipeline.arrRef spec0 w ≠ b) (h0 : b ≠ main_v0)
    (hb1 : ∀ w, Pipeline.arrRef spec1 w ≠ b) (h1 : b ≠ main_v2) :
    W4 m ρ c (Proc.devRef .tc b) = m ((c : Thread nD τ).loc b) := by
  rw [W4_of_ne m ρ c b hb1]
  show StableHlo.after hostOps1 (W2 m ρ c) (Proc.devRef .tc b) = _
  simp only [after_cons, after_nil]
  rw [reshape_result_ne (h := h1)]
  exact w2_arg m ρ c b hb0 h0

theorem e2_x (c : Dev nD) : V5 m ρ c main_arg2 = m ((c : Thread nD τ).loc main_arg2) := by
  show StableHlo.after hostOps2 (W4 m ρ c) (Proc.devRef .tc main_arg2) = _
  after_results
  exact w4_arg m ρ c main_arg2 (by decide) (by decide) (by decide) (by decide)

theorem e2_w (c : Dev nD) : V5 m ρ c main_arg7 = m ((c : Thread nD τ).loc main_arg7) := by
  show StableHlo.after hostOps2 (W4 m ρ c) (Proc.devRef .tc main_arg7) = _
  after_results
  exact w4_arg m ρ c main_arg7 (by decide) (by decide) (by decide) (by decide)

theorem e2_b (c : Dev nD) : V5 m ρ c main_v4 = shapeCast S8x1x64 (m ((c : Thread nD τ).loc main_arg8)) shapeCasts_S512_S8x1x64 := by
  show StableHlo.after hostOps2 (W4 m ρ c) (Proc.devRef .tc main_v4) = _
  after_results
  rw [w4_arg m ρ c main_arg8 (by decide) (by decide) (by decide) (by decide)]
  rfl

/-! ## The attention region: the three head-major projections the earlier regions left -/

theorem e3_v (c : Dev nD) : V6 m ρ c main_v5 = (dat2 (V5 m ρ) c).arrAt 3 cfg2.N := W6_arr m ρ c 3

theorem e3_k (c : Dev nD) : V6 m ρ c main_v3 = (dat1 (V3 m ρ) c).arrAt 3 cfg1.N := by
  show W6 m ρ c (Proc.devRef .tc main_v3) = _
  rw [W6_of_ne m ρ c main_v3 (by decide)]
  show StableHlo.after hostOps2 (W4 m ρ c) (Proc.devRef .tc main_v3) = _
  after_results
  exact W4_arr m ρ c 3

theorem e3_q (c : Dev nD) : V6 m ρ c main_v1 = (dat0 (V1 m ρ) c).arrAt 3 cfg0.N := by
  show W6 m ρ c (Proc.devRef .tc main_v1) = _
  rw [W6_of_ne m ρ c main_v1 (by decide)]
  show StableHlo.after hostOps2 (W4 m ρ c) (Proc.devRef .tc main_v1) = _
  after_results
  rw [W4_of_ne m ρ c main_v1 (by decide)]
  show StableHlo.after hostOps1 (W2 m ρ c) (Proc.devRef .tc main_v1) = _
  after_results
  exact W2_arr m ρ c 3

/-! ## The last region: the context regrouped by head, the output weight split by head, three row vectors, the residual -/

/-- Nothing up to the last stretch has written an argument the first four regions do not stage. -/
theorem w7_arg (c : Dev nD) (b : Ref sig .tc) (hb0 : ∀ w, Pipeline.arrRef spec0 w ≠ b) (h0 : b ≠ main_v0)
    (hb1 : ∀ w, Pipeline.arrRef spec1 w ≠ b) (h1 : b ≠ main_v2) (hb2 : ∀ w, Pipeline.arrRef spec2 w ≠ b) (h2 : b ≠ main_v4)
    (hb3 : ∀ w, Pipeline.arrRef spec3 w ≠ b) :
    W7 m ρ c (Proc.devRef .tc b) = m ((c : Thread nD τ).loc b) := by
  rw [W7_of_ne m ρ c b hb3, W6_of_ne m ρ c b hb2]
  show StableHlo.after hostOps2 (W4 m ρ c) (Proc.devRef .tc b) = _
  simp only [after_cons, after_nil]
  rw [reshape_result_ne (h := h2)]
  exact w4_arg m ρ c b hb0 h0 hb1 h1

theorem e4_o (c : Dev nD) : V8 m ρ c main_v7
    = shapeCast S8x4x2048x64 ((dat3 (V6 m ρ) c).arrAt 3 cfg3.N) shapeCasts_S32x2048x64_S8x4x2048x64 := by
  show StableHlo.after hostOps4 (W7 m ρ c) (Proc.devRef .tc main_v7) = _
  after_results
  rw [W7_arr m ρ c 3]
  rfl

theorem e4_w (c : Dev nD) : V8 m ρ c main_v9
    = transpose S8x512x64 [1, 0, 2] (shapeCast S512x8x64 (m ((c : Thread nD τ).loc main_arg9)) shapeCasts_S512x512_S512x8x64) transposes_S512x8x64_S8x512x64_1_0_2 := by
  show StableHlo.after hostOps4 (W7 m ρ c) (Proc.devRef .tc main_v9) = _
  after_results
  rw [w7_arg m ρ c main_arg9 (by decide) (by decide) (by decide) (by decide) (by decide) (by decide) (by decide)]
  rfl

theorem e4_b (c : Dev nD) : V8 m ρ c main_v10 = shapeCast S1x512 (m ((c : Thread nD τ).loc main_arg10)) shapeCasts_S512_S1x512 := by
  show StableHlo.after hostOps4 (W7 m ρ c) (Proc.devRef .tc main_v10) = _
  after_results
  rw [w7_arg m ρ c main_arg10 (by decide) (by decide) (by decide) (by decide) (by decide) (by decide) (by decide)]
  rfl

theorem e4_g (c : Dev nD) : V8 m ρ c main_v11 = shapeCast S1x512 (m ((c : Thread nD τ).loc main_arg11)) shapeCasts_S512_S1x512 := by
  show StableHlo.after hostOps4 (W7 m ρ c) (Proc.devRef .tc main_v11) = _
  after_results
  rw [w7_arg m ρ c main_arg11 (by decide) (by decide) (by decide) (by decide) (by decide) (by decide) (by decide)]
  rfl

theorem e4_s (c : Dev nD) : V8 m ρ c main_v12 = shapeCast S1x512 (m ((c : Thread nD τ).loc main_arg12)) shapeCasts_S512_S1x512 := by
  show StableHlo.after hostOps4 (W7 m ρ c) (Proc.devRef .tc main_v12) = _
  after_results
  rw [w7_arg m ρ c main_arg12 (by decide) (by decide) (by decide) (by decide) (by decide) (by decide) (by decide)]
  rfl

/-- The residual is the query input as launched: the first region stages it and leaves it as it found it. -/
theorem e4_r (c : Dev nD) : V8 m ρ c main_arg0 = m ((c : Thread nD τ).loc main_arg0) :=
  ((W9_arr m ρ c 3).trans (((dat4 (V8 m ρ) c).arrAt_in 3 rfl _).trans (A_eq4 (V8 m ρ) c 3))).symm.trans (W9_main_arg0 m ρ c)

/-! ## The two results at the last boundary -/

theorem out_layer (c : Dev nD) : W9 m ρ c (Proc.devRef .tc main_v13) = (dat4 (V8 m ρ) c).arrAt 6 cfg4.N := W9_arr m ρ c 6

theorem out_attn (c : Dev nD) : W9 m ρ c (Proc.devRef .tc main_v6_1) = (dat3 (V6 m ρ) c).arrAt 4 cfg3.N := by
  rw [W9_of_ne m ρ c main_v6_1 (by decide)]
  show StableHlo.after hostOps4 (W7 m ρ c) (Proc.devRef .tc main_v6_1) = _
  after_results
  exact W7_arr m ρ c 4

end Cert.KEntry

end
-- ==== Proof.Spec.lean ====
/-
  The mathematics both programs compute, as functions of coordinates over the extended reals.

  Multi-head attention followed by an output projection, a residual and a layer norm.  With
  x : [4, 2048, 512] (batch b, position s, model feature d), a weight w : [512, 512] and a bias
  b : [512], a head projection is
      proj x w b h b s j = (∑ d, x[b, s, d] · w[h·64 + j, d]) + bias[h·64 + j].
  Scores are (∑ j, Q[h,b,q,j] · K[h,b,k,j]) · 0.125, the probabilities the softmax of a score row
  taken with the row maximum subtracted, the context ∑ k, P[h,b,q,k] · V[h,b,k,j].  The output
  projection contracts head and head-feature together with w_fc[d, h·64 + j], adds its bias and
  the residual (the query input), and the result is normalised along the model axis with the
  mean and the biased variance, a gain and a shift.

  Everything here is a sum, a product, a maximum, an exponential, a quotient or a reciprocal square
  root of extended reals taken in one fixed order; no law that needs finiteness is used anywhere.
-/
import Idealize.ShloMosaic.PureOps.Ideal
import Idealize.ShloMosaic.Lib.ValueIdx

noncomputable section

namespace Cert.Spec

open Idealize.ShloMosaic Idealize.ShloMosaic.ValueIdx

/-- A [4, 2048, 512] activation, a [512, 512] weight, a [512] vector. -/
abbrev Act := FVec Ideal ⟨3, ![4, 2048, 512]⟩ .f32
abbrev Wgt := FVec Ideal ⟨2, ![512, 512]⟩ .f32
abbrev Vec1 := FVec Ideal ⟨1, ![512]⟩ .f32
/-- A per-head quantity [8, 4, 2048, 64] and a per-head score [8, 4, 2048, 2048], as functions of their coordinates. -/
abbrev Heads := Fin 8 → Fin 4 → Fin 2048 → Fin 64 → EReal
abbrev Scores := Fin 8 → Fin 4 → Fin 2048 → Fin 2048 → EReal

/-- The model feature h·64 + j of head h, head-feature j. -/
def feat (h : Fin 8) (j : Fin 64) : Fin 512 := ⟨h.val * 64 + j.val, by omega⟩

theorem feat_val (h : Fin 8) (j : Fin 64) : (feat h j).val = h.val * 64 + j.val := rfl

/-- A head projection: row h·64 + j of the weight against the model axis, plus the bias. -/
def proj (x : Act) (w : Wgt) (b : Vec1) : Heads := fun h bb s j =>
  (∑ d : Fin 512, x (ix3 bb s d) * w (ix2 (feat h j) d)) + b (ix1 (feat h j))

/-- The scaled score of query q against key k. -/
def score (Q K : Heads) : Scores := fun h bb q k =>
  (∑ j : Fin 64, Q h bb q j * K h bb k j) * Ideal.ofBits .f32 0x3E000000#32

/-- The maximum of a row of 2048 scores, folded from minus infinity. -/
def rowMax (s : Fin 2048 → EReal) : EReal :=
  (Finset.univ : Finset (Fin 2048)).fold max (Ideal.ofBits .f32 0xFF800000#32) s

/-- The exponential of a score less the row's maximum. -/
def expRow (s : Fin 2048 → EReal) (k : Fin 2048) : EReal := Ideal.exp (s k - rowMax s)

/-- The softmax of a row of 2048 scores. -/
def softRow (s : Fin 2048 → EReal) (k : Fin 2048) : EReal :=
  Ideal.div (expRow s k) (∑ k' : Fin 2048, expRow s k')

/-- The softmax of every score row. -/
def soft (S : Scores) : Scores := fun h bb q k => softRow (S h bb q) k

/-- The attention probabilities of queries Q against keys K. -/
def prob (Q K : Heads) : Scores := soft (score Q K)

/-- The context: probabilities against the values. -/
def ctx (P : Scores) (V : Heads) : Heads := fun h bb q j => ∑ k : Fin 2048, P h bb q k * V h bb k j

/-- The output projection over heads and head-features, its bias and the residual. -/
def resid (O : Heads) (wfc : Wgt) (bfc : Vec1) (res : Act) (bb : Fin 4) (s : Fin 2048) (d : Fin 512) : EReal :=
  ((∑ h : Fin 8, ∑ j : Fin 64, O h bb s j * wfc (ix2 d (feat h j))) + bfc (ix1 d)) + res (ix3 bb s d)

/-- The mean of a row of 512 features. -/
def meanRow (r : Fin 512 → EReal) : EReal :=
  Ideal.div (∑ d : Fin 512, r d) (Ideal.ofBits .f32 0x44000000#32)

/-- The biased variance of a row of 512 features. -/
def varRow (r : Fin 512 → EReal) : EReal :=
  Ideal.div (∑ d : Fin 512, (r d - meanRow r) * (r d - meanRow r)) (Ideal.ofBits .f32 0x44000000#32)

/-- The layer norm of a row of 512 features with gain g and shift β. -/
def lnRow (r g β : Fin 512 → EReal) (d : Fin 512) : EReal :=
  ((r d - meanRow r) * Ideal.rsqrt (varRow r + Ideal.ofBits .f32 0x3727C5AC#32)) * g d + β d

/-- The layer norm of every row along the model axis. -/
def lnorm (R : Fin 4 → Fin 2048 → Fin 512 → EReal) (g β : Vec1) (bb : Fin 4) (s : Fin 2048) (d : Fin 512) : EReal :=
  lnRow (R bb s) (fun d' => g (ix1 d')) (fun d' => β (ix1 d')) d

/-- The head index and the batch index of row hb = h·4 + b of a head-major array. -/
def headOf (hb : Fin 32) : Fin 8 := ⟨hb.val / 4, by omega⟩
def batchOf (hb : Fin 32) : Fin 4 := ⟨hb.val % 4, by omega⟩

/-- The probabilities of the whole layer, as the [32, 2048, 2048] result (row hb = h·4 + b). -/
def attnOut (q k : Act) (wq : Wgt) (bq : Vec1) (wk : Wgt) (bk : Vec1) : FVec Ideal ⟨3, ![32, 2048, 2048]⟩ .f32 := fun i =>
  prob (proj q wq bq) (proj k wk bk) (headOf (i 0)) (batchOf (i 0)) (i 1) (i 2)

/-- The layer's [4, 2048, 512] result. -/
def layerOut (q k v : Act) (wq : Wgt) (bq : Vec1) (wk : Wgt) (bk : Vec1) (wv : Wgt) (bv : Vec1) (wfc : Wgt) (bfc g β : Vec1) :
    FVec Ideal ⟨3, ![4, 2048, 512]⟩ .f32 := fun i =>
  lnorm (resid (ctx (prob (proj q wq bq) (proj k wk bk)) (proj v wv bv)) wfc bfc q) g β (i 0) (i 1) (i 2)

end Cert.Spec

end
-- ==== Proof.Arrays.lean ====
/-
  The kernel's arrays as whole functions, and their agreement with the layer's mathematics.

  The kernel keeps every per-head quantity head-major: row hb = h·4 + b of a [32, 2048, ·] array is
  head h of batch b.  Here each region's result is written as one function of the region's input
  arrays, and those functions are identified with the specification: a head-major array of a per-head
  quantity is that quantity read at (hb / 4, hb % 4); the bias reshaped to [8, 1, 64] is the bias at
  feature h·64 + j; the output weight reshaped to [512, 8, 64] and transposed to [8, 512, 64] is the
  weight at (d, h·64 + j); a [512] vector reshaped to one row is the vector; the context array
  regrouped to [8, 4, 2048, 64] is the context at (h, b).
-/
import proofs.«123167_j8134668058670_2_alg».proof.Proof.Gen.KernelIdeal
import proofs.«123167_j8134668058670_2_alg».proof.Proof.Spec
import Idealize.ShloMosaic.Lib.Pipeline.Value
import Idealize.ShloMosaic.Lib.ValueIdx

noncomputable section

namespace Cert.KArrays

open Cert.KernelIdeal Cert.KernelIdeal.Facts₀ Cert.KernelIdeal.Facts Cert.Spec
open Idealize.ShloMosaic Idealize.ShloMosaic.ValueIdx

/-! ## The regions' results as functions of their input arrays -/

/-- The head-major projection of an activation, a weight and a per-head bias, entry by entry. -/
def projArr (X : S4x2048x512.Idx → EReal) (Wt : S512x512.Idx → EReal) (Bs : S8x1x64.Idx → EReal) : S32x2048x64.Idx → EReal := fun i =>
  (∑ d : Fin 512, X (ix3 (batchOf (i 0)) (i 1) d) * Wt (ix2 (feat (headOf (i 0)) (i 2)) d)) + Bs (ix3 (headOf (i 0)) (0 : Fin 1) (i 2))

/-- The scaled scores of query (hb, q) against every key of row hb. -/
def scoreRow (Q K : S32x2048x64.Idx → EReal) (hb : Fin 32) (q : Fin 2048) : Fin 2048 → EReal := fun k' =>
  (∑ j : Fin 64, Q (ix3 hb q j) * K (ix3 hb k' j)) * Ideal.ofBits .f32 0x3E000000#32

/-- The probabilities, entry by entry. -/
def probArr (Q K : S32x2048x64.Idx → EReal) : S32x2048x2048.Idx → EReal := fun i =>
  softRow (scoreRow Q K (i 0) (i 1)) (i 2)

/-- The contexts, entry by entry. -/
def ctxArr (Q K Vv : S32x2048x64.Idx → EReal) : S32x2048x64.Idx → EReal := fun i =>
  ∑ k : Fin 2048, softRow (scoreRow Q K (i 0) (i 1)) k * Vv (ix3 (i 0) k (i 2))

/-- Row (b, s) before normalisation: contexts against the split weight over heads and head-features, the bias, the residual. -/
def preRow (O : S8x4x2048x64.Idx → EReal) (Wf : S8x512x64.Idx → EReal) (Bf : S1x512.Idx → EReal) (R : S4x2048x512.Idx → EReal)
    (bb : Fin 4) (s : Fin 2048) : Fin 512 → EReal := fun d' =>
  ((∑ h : Fin 8, ∑ j : Fin 64, O (ix4 h bb s j) * Wf (ix3 h d' j)) + Bf (ix2 (0 : Fin 1) d')) + R (ix3 bb s d')

/-- The normalised rows, entry by entry. -/
def rowsArr (O : S8x4x2048x64.Idx → EReal) (Wf : S8x512x64.Idx → EReal) (Bf : S1x512.Idx → EReal) (R : S4x2048x512.Idx → EReal)
    (Gn Bt : S1x512.Idx → EReal) : S4x2048x512.Idx → EReal := fun i =>
  lnRow (preRow O Wf Bf R (i 0) (i 1)) (fun d' => Gn (ix2 (0 : Fin 1) d')) (fun d' => Bt (ix2 (0 : Fin 1) d')) (i 2)

/-! ## Their agreement with the specification -/

/-- A per-head quantity laid out head-major. -/
def flat (H : Heads) : S32x2048x64.Idx → EReal := fun i => H (headOf (i 0)) (batchOf (i 0)) (i 1) (i 2)

/-- The bias reshaped to [8, 1, 64] holds, at (h, 0, j), the bias of feature h·64 + j. -/
theorem bias_at (b : S512.Idx → EReal) (h : Fin 8) (j : Fin 64) :
    shapeCast S8x1x64 b shapeCasts_S512_S8x1x64 (ix3 h (0 : Fin 1) j) = b (ix1 (feat h j)) :=
  shapeCast_apply b _ _ _ (by
    rw [Shape.rowMajor_val_one, Shape.rowMajor_val_three]
    show h.val * 64 + j.val = (h.val * 1 + 0) * 64 + j.val
    omega)

/-- A [512] vector reshaped to one row. -/
theorem row_at (v : S512.Idx → EReal) (d : Fin 512) :
    shapeCast S1x512 v shapeCasts_S512_S1x512 (ix2 (0 : Fin 1) d) = v (ix1 d) :=
  shapeCast_apply v _ _ _ (by
    rw [Shape.rowMajor_val_one, Shape.rowMajor_val_two]
    show d.val = 0 * 512 + d.val
    omega)

/-- The output weight split by head: entry (h, d, j) is the weight at (d, h·64 + j). -/
theorem wsplit_at (w : S512x512.Idx → EReal) (h : Fin 8) (d : Fin 512) (j : Fin 64) :
    transpose S8x512x64 [1, 0, 2] (shapeCast S512x8x64 w shapeCasts_S512x512_S512x8x64) transposes_S512x8x64_S8x512x64_1_0_2 (ix3 h d j)
      = w (ix2 d (feat h j)) := by
  rw [transpose_apply [1, 0, 2] _ transposes_S512x8x64_S8x512x64_1_0_2 (ix3 h d j) (ix3 d h j) (by
    intro b
    match b with
    | ⟨0, _⟩ => rfl
    | ⟨1, _⟩ => rfl
    | ⟨2, _⟩ => rfl)]
  exact shapeCast_apply w _ _ _ (by
    rw [Shape.rowMajor_val_two, Shape.rowMajor_val_three]
    show d.val * 512 + (h.val * 64 + j.val) = (d.val * 8 + h.val) * 64 + j.val
    omega)

/-- The head-major row of head h, batch b. -/
def rowOf (h : Fin 8) (bb : Fin 4) : Fin 32 := ⟨h.val * 4 + bb.val, by omega⟩

/-- A head-major array regrouped to [8, 4, 2048, 64]: entry (h, b, s, j) is row h·4 + b. -/
theorem regroup_at (A : S32x2048x64.Idx → EReal) (h : Fin 8) (bb : Fin 4) (s : Fin 2048) (j : Fin 64) :
    shapeCast S8x4x2048x64 A shapeCasts_S32x2048x64_S8x4x2048x64 (ix4 h bb s j) = A (ix3 (rowOf h bb) s j) :=
  shapeCast_apply A _ _ _ (by
    rw [Shape.rowMajor_val_three, Shape.rowMajor_val_four]
    show ((h.val * 4 + bb.val) * 2048 + s.val) * 64 + j.val = ((h.val * 4 + bb.val) * 2048 + s.val) * 64 + j.val
    rfl)

theorem headOf_rowOf (h : Fin 8) (bb : Fin 4) : headOf (rowOf h bb) = h := Fin.ext (by show (h.val * 4 + bb.val) / 4 = h.val; omega)
theorem batchOf_rowOf (h : Fin 8) (bb : Fin 4) : batchOf (rowOf h bb) = bb := Fin.ext (by show (h.val * 4 + bb.val) % 4 = bb.val; omega)

/-- A projection region's result is the head projection laid out head-major. -/
theorem projArr_eq (X : S4x2048x512.Idx → EReal) (Wt : S512x512.Idx → EReal) (b : S512.Idx → EReal) :
    projArr X Wt (shapeCast S8x1x64 b shapeCasts_S512_S8x1x64) = flat (proj X Wt b) := by
  funext i
  unfold projArr flat proj
  exact congrArg (_ + ·) (bias_at b (headOf (i 0)) (i 2))

/-- The score row of row hb, query q over head-major arrays is the score row of head hb / 4, batch hb % 4. -/
theorem scoreRow_flat (Q K : Heads) (hb : Fin 32) (q : Fin 2048) :
    scoreRow (flat Q) (flat K) hb q = score Q K (headOf hb) (batchOf hb) q := rfl

/-- The attention region's probabilities are the specification's, head-major. -/
theorem probArr_eq (Q K : Heads) :
    probArr (flat Q) (flat K) = fun i => prob Q K (headOf (i 0)) (batchOf (i 0)) (i 1) (i 2) := rfl

/-- The attention region's contexts are the specification's, head-major. -/
theorem ctxArr_eq (Q K Vh : Heads) : ctxArr (flat Q) (flat K) (flat Vh) = flat (ctx (prob Q K) Vh) := rfl

/-- The last region's rows are the specification's layer norm of the residual rows. -/
theorem rowsArr_eq (C : Heads) (wfc : S512x512.Idx → EReal) (bfc g β : S512.Idx → EReal) (xq : S4x2048x512.Idx → EReal) :
    rowsArr (shapeCast S8x4x2048x64 (flat C) shapeCasts_S32x2048x64_S8x4x2048x64)
        (transpose S8x512x64 [1, 0, 2] (shapeCast S512x8x64 wfc shapeCasts_S512x512_S512x8x64) transposes_S512x8x64_S8x512x64_1_0_2)
        (shapeCast S1x512 bfc shapeCasts_S512_S1x512) xq (shapeCast S1x512 g shapeCasts_S512_S1x512) (shapeCast S1x512 β shapeCasts_S512_S1x512)
      = fun i => lnorm (resid C wfc bfc xq) g β (i 0) (i 1) (i 2) := by
  funext i
  obtain ⟨bb, s, d, rfl⟩ : ∃ (bb : Fin 4) (s : Fin 2048) (d : Fin 512), i = ix3 bb s d := ⟨i 0, i 1, i 2, eq_ix3 i⟩
  have hp : preRow (shapeCast S8x4x2048x64 (flat C) shapeCasts_S32x2048x64_S8x4x2048x64)
      (transpose S8x512x64 [1, 0, 2] (shapeCast S512x8x64 wfc shapeCasts_S512x512_S512x8x64) transposes_S512x8x64_S8x512x64_1_0_2)
      (shapeCast S1x512 bfc shapeCasts_S512_S1x512) xq bb s = resid C wfc bfc xq bb s := by
    funext d'
    unfold preRow resid
    rw [row_at]
    refine congrArg (· + _) (congrArg (· + _) (Finset.sum_congr rfl fun h _ => Finset.sum_congr rfl fun j _ => ?_))
    rw [regroup_at, wsplit_at]
    show C (headOf (rowOf h bb)) (batchOf (rowOf h bb)) s j * _ = _
    rw [headOf_rowOf, batchOf_rowOf]
  show lnRow (preRow _ _ _ xq bb s) _ _ d = lnRow (resid C wfc bfc xq bb s) _ _ d
  rw [hp]
  exact congrArg₂ (fun a b => lnRow _ a b d) (funext fun d' => row_at g d') (funext fun d' => row_at β d')

end Cert.KArrays

end
-- ==== Proof.LibBody.lean ====
/-
  Layout operations and reductions of a matrix read at an index, stated over coordinates:
  the column forms of a vector, a row sum, a row maximum, and the plain matrix product
  [m, k] · [k, n] into the zero matrix as a sum over the shared axis.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KBody

open Idealize.ShloMosaic Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The row index `p` with the column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of a matrix, read at row `p`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    Idealize.ShloMosaic.multiReduction (F := Ideal) .add [1] ⟨1, ![a]⟩ src 0x00000000#32 h hφ hacc (ix1 p) = ∑ k : Fin b, src (ix2 p k) := by
  rw [Ideal.multiReduction_add_single]
  exact Finset.sum_congr rfl fun k _ => congrArg src (lift_row h p k)

/-- A maximum along the rows of a matrix, read at row `p`: the fold of `max` from minus infinity. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    Idealize.ShloMosaic.multiReduction (F := Ideal) .maximumf [1] ⟨1, ![a]⟩ src 0xFF800000#32 h hφ hacc (ix1 p)
      = (Finset.univ : Finset (Fin b)).fold max (Ideal.ofBits .f32 0xFF800000#32) (fun k => src (ix2 p k)) := by
  rw [Ideal.multiReduction_maximumf_single]
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The dimension numbers of the plain product of an `[m, k]` by a `[k, n]` matrix. -/
abbrev plainDims (m k n : ℕ) (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

theorem plain_lhs0 {m k n : ℕ} (wf) (j : (⟨2, ![m, n]⟩ : Shape).Idx) (kk : (plainDims m k n wf).contr.Idx) :
    ((plainDims m k n wf).lhsIdx j kk 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

theorem plain_rhs1 {m k n : ℕ} (wf) (j : (⟨2, ![m, n]⟩ : Shape).Idx) (kk : (plainDims m k n wf).contr.Idx) :
    ((plainDims m k n wf).rhsIdx j kk 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The plain product of an `[m, k]` by a `[k, n]` matrix into the zero matrix, read at `(p, q)`: the sum over the
    shared axis of the products. -/
theorem matmul_plain_apply {m k n : ℕ} {φ₁ φ₂ : FTy}
    (wf : DotDims.WF ⟨2, ![m, k]⟩ ⟨2, ![k, n]⟩ ⟨2, ![m, n]⟩ [1] [0] [0] [1] [] [])
    (prec : Option ContractPrecision) (lhs : FVec Ideal ⟨2, ![m, k]⟩ φ₁) (rhs : FVec Ideal ⟨2, ![k, n]⟩ φ₂) (p : Fin m) (q : Fin n) :
    FloatOps.matmul (plainDims m k n wf) prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 (plainDims m k n wf) k rfl rfl).symm]
  refine Finset.sum_congr rfl fun c _ => ?_
  have hk := contrEquiv1_symm_val (plainDims m k n wf) k rfl rfl c
  have el : (plainDims m k n wf).lhsIdx (ix2 p q) ((contrEquiv1 (plainDims m k n wf) k rfl rfl).symm c) = ix2 p c :=
    funext fun a => Fin.ext (by
      match a with
      | ⟨0, _⟩ => exact plain_lhs0 wf _ _
      | ⟨1, _⟩ => exact ((plainDims m k n wf).lhsIdx_val_of_single rfl _ _).trans hk)
  have er : (plainDims m k n wf).rhsIdx (ix2 p q) ((contrEquiv1 (plainDims m k n wf) k rfl rfl).symm c) = ix2 c q :=
    funext fun a => Fin.ext (by
      match a with
      | ⟨0, _⟩ => exact ((plainDims m k n wf).rhsIdx_val_of_single rfl _ _).trans hk
      | ⟨1, _⟩ => exact plain_rhs1 wf _ _)
  rw [el, er]

end Cert.KBody

end
-- ==== Proof.BodyProj.lean ====
/-
  The three projection kernels' bodies read at an index: a block of activations [1, 1024, 512] against a
  [64, 512] slab of the weight (its rows the head's features), plus the head's bias:
      out[0, r, j] = (∑ d, x[0, r, d] · w[j, d]) + b[0, 0, j].
-/
import proofs.«123167_j8134668058670_2_alg».proof.Proof.Spec
import proofs.«123167_j8134668058670_2_alg».proof.Proof.LibBody
import proofs.«123167_j8134668058670_2_alg».proof.Proof.Gen.KernelIdeal.Frame

noncomputable section

namespace Cert.KBody

open Idealize.ShloMosaic Idealize.ShloMosaic.ValueIdx Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The projection payload at an index. -/
theorem pay_proj (v0 : Vec Ideal S1x1024x512 .f32) (v3 : Vec Ideal S64x512 .f32) (v7 : Vec Ideal S1x1x64 .f32)
    (r : Fin 1024) (j : Fin 64) :
    k0_pay1 (F := Ideal) v0 v3 v7 (ix3 (0 : Fin 1) r j)
      = (∑ d : Fin 512, v0 (ix3 (0 : Fin 1) r d) * v3 (ix2 j d)) + v7 (ix3 (0 : Fin 1) (0 : Fin 1) j) := by
  unfold k0_pay1
  refine (shapeCast_ab_1ab_apply _ _ (0 : Fin 1) r j).trans ?_
  refine (addf_apply _ _ _).trans ?_
  refine congrArg₂ (· + ·) ?_ ?_
  · refine (matmul_plain_apply _ none _ _ r j).trans ?_
    refine Finset.sum_congr rfl fun d _ => ?_
    refine congrArg₂ (· * ·) ?_ ?_
    · refine (truncf_apply (φ := .f32) (ψ := .bf16) _ _ _).trans ?_
      exact shapeCast_1ab_ab_apply _ _ r d
    · refine (transpose_ix2_apply _ _ d j).trans ?_
      exact truncf_apply (φ := .f32) (ψ := .bf16) _ _ _
  · refine (broadcastTo_1b_ab_apply _ _ r j).trans ?_
    refine (shapeCast_a_1a_apply _ _ (0 : Fin 1) j).trans ?_
    exact shapeCast_11a_a_apply _ _ j

/-- The three projection kernels have one body. -/
theorem k1_eq (v0 : Vec Ideal S1x1024x512 .f32) (v3 : Vec Ideal S64x512 .f32) (v7 : Vec Ideal S1x1x64 .f32) :
    k1_pay1 (F := Ideal) v0 v3 v7 = k0_pay1 (F := Ideal) v0 v3 v7 := rfl
theorem k2_eq (v0 : Vec Ideal S1x1024x512 .f32) (v3 : Vec Ideal S64x512 .f32) (v7 : Vec Ideal S1x1x64 .f32) :
    k2_pay1 (F := Ideal) v0 v3 v7 = k0_pay1 (F := Ideal) v0 v3 v7 := rfl

/-- Projection kernel 0's output block at (0, r, j). -/
theorem proj0 (x0 : Vec Ideal S1x1024x512 .f32) (x1 : Vec Ideal S64x512 .f32) (x2 : Vec Ideal S1x1x64 .f32) (r : Fin 1024) (j : Fin 64) :
    out0_3 (F := Ideal) x0 x1 x2 (ix3 (0 : Fin 1) r j)
      = (∑ d : Fin 512, x0 (ix3 (0 : Fin 1) r d) * x1 (ix2 j d)) + x2 (ix3 (0 : Fin 1) (0 : Fin 1) j) := by
  unfold out0_3
  rw [View.canon_unit_zero hz3]
  simp only [View.ld_unit_zero (S := S1x1024x512) hz3, View.ld_unit_zero (S := S64x512) hz2, View.ld_unit_zero (S := S1x1x64) hz3]
  exact pay_proj x0 x1 x2 r j

/-- Projection kernel 1's output block at (0, r, j). -/
theorem proj1 (x0 : Vec Ideal S1x1024x512 .f32) (x1 : Vec Ideal S64x512 .f32) (x2 : Vec Ideal S1x1x64 .f32) (r : Fin 1024) (j : Fin 64) :
    out1_3 (F := Ideal) x0 x1 x2 (ix3 (0 : Fin 1) r j)
      = (∑ d : Fin 512, x0 (ix3 (0 : Fin 1) r d) * x1 (ix2 j d)) + x2 (ix3 (0 : Fin 1) (0 : Fin 1) j) := by
  unfold out1_3
  rw [View.canon_unit_zero hz3]
  simp only [View.ld_unit_zero (S := S1x1024x512) hz3, View.ld_unit_zero (S := S64x512) hz2, View.ld_unit_zero (S := S1x1x64) hz3]
  exact (congrFun (k1_eq x0 x1 x2) _).trans (pay_proj x0 x1 x2 r j)

/-- Projection kernel 2's output block at (0, r, j). -/
theorem proj2 (x0 : Vec Ideal S1x1024x512 .f32) (x1 : Vec Ideal S64x512 .f32) (x2 : Vec Ideal S1x1x64 .f32) (r : Fin 1024) (j : Fin 64) :
    out2_3 (F := Ideal) x0 x1 x2 (ix3 (0 : Fin 1) r j)
      = (∑ d : Fin 512, x0 (ix3 (0 : Fin 1) r d) * x1 (ix2 j d)) + x2 (ix3 (0 : Fin 1) (0 : Fin 1) j) := by
  unfold out2_3
  rw [View.canon_unit_zero hz3]
  simp only [View.ld_unit_zero (S := S1x1024x512) hz3, View.ld_unit_zero (S := S64x512) hz2, View.ld_unit_zero (S := S1x1x64) hz3]
  exact (congrFun (k2_eq x0 x1 x2) _).trans (pay_proj x0 x1 x2 r j)

end Cert.KBody

end
-- ==== Proof.ArrProj0.lean ====
/-
  Projection kernel 0: from blocks to the whole array.

  The grid is (batch b, half s of the sequence, head h): 4 × 2 × 8 points.  At a point the kernel reads
  rows s·1024 … s·1024 + 1023 of batch b of the activation, rows h·64 … h·64 + 63 of the weight and the
  64 bias entries of head h, and writes the [1024, 64] block of row h·4 + b of the head-major result.
  Every entry of the result is therefore one function of the three arrays: the row of the activation
  against row h·64 + j of the weight, plus bias entry (h, j).  The blocks tile the result, so the array
  after the run is that function everywhere.
-/
import proofs.«123167_j8134668058670_2_alg».proof.Proof.Gen.KernelIdeal.Frame
import proofs.«123167_j8134668058670_2_alg».proof.Proof.Spec
import proofs.«123167_j8134668058670_2_alg».proof.Proof.BodyProj
import proofs.«123167_j8134668058670_2_alg».proof.Proof.Arrays
import Idealize.ShloMosaic.Lib.Pipeline.Value
import Idealize.ShloMosaic.Lib.ValueIdx

set_option maxRecDepth 16384

noncomputable section

namespace Cert.KArr0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The head-major projection of the region's three input arrays as it finds them. -/
def G (c : Dev nD) : S32x2048x64.Idx → EReal := Cert.KArrays.projArr (V c main_arg0) (V c main_arg3) (V c main_v0)

/-- The block indices of the four windows over the grid: batch, sequence half and head. -/
theorem idx_facts : ∀ t : Fin cfg0.N,
    win0_3.index t (0 : Fin 3) = win0_1.index t (0 : Fin 2) * 4 + win0_0.index t (0 : Fin 3)
    ∧ win0_0.index t (0 : Fin 3) < 4 ∧ win0_1.index t (0 : Fin 2) < 8
    ∧ win0_3.index t (1 : Fin 3) = win0_0.index t (1 : Fin 3) ∧ win0_0.index t (1 : Fin 3) < 2
    ∧ win0_0.index t (2 : Fin 3) = 0 ∧ win0_1.index t (1 : Fin 2) = 0
    ∧ win0_2.index t (0 : Fin 3) = win0_1.index t (0 : Fin 2) ∧ win0_2.index t (1 : Fin 3) = 0 ∧ win0_2.index t (2 : Fin 3) = 0
    ∧ win0_3.index t (2 : Fin 3) = 0 :=
  (by decide +kernel : ∀ t : Fin grid0.N, _)

/-- Every block of the result is some point's. -/
theorem idx_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-- What a point writes back is its block of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  obtain ⟨e0, e1, e2, e3, e4, e5, e6, e7, e8, e9, e10⟩ := idx_facts t
  funext y
  show out0_3 (iblk0 V c 0 t) (iblk0 V c 1 t) (iblk0 V c 2 t) y = G V c (((cfg0.win 3).blk t).view.emb y)
  obtain ⟨a, r, j, rfl⟩ : ∃ (a : Fin 1) (r : Fin 1024) (j : Fin 64), y = ix3 a r j := ⟨y 0, y 1, y 2, eq_ix3 y⟩
  obtain rfl : a = 0 := Subsingleton.elim _ _
  refine (Cert.KBody.proj0 _ _ _ r j).trans ?_
  unfold G Cert.KArrays.projArr
  have hx : ∀ d : Fin 512, iblk0 V c 0 t (ix3 (0 : Fin 1) r d)
      = V c main_arg0 (ix3 (batchOf ((((cfg0.win 3).blk t).view.emb (ix3 (0 : Fin 1) r j)) 0)) ((((cfg0.win 3).blk t).view.emb (ix3 (0 : Fin 1) r j)) 1) d) := by
    intro d
    show V c main_arg0 (((cfg0.win 0).blk t).view.emb (ix3 (0 : Fin 1) r d)) = _
    refine congrArg (V c main_arg0) (funext fun a => Fin.ext ?_)
    match a with
    | ⟨0, _⟩ =>
      show win0_0.index t (0 : Fin 3) * 1 + 1 * 0 = (win0_3.index t (0 : Fin 3) * 1 + 1 * 0) % 4
      omega
    | ⟨1, _⟩ =>
      show win0_0.index t (1 : Fin 3) * 1024 + 1 * r.val = win0_3.index t (1 : Fin 3) * 1024 + 1 * r.val
      omega
    | ⟨2, _⟩ =>
      show win0_0.index t (2 : Fin 3) * 512 + 1 * d.val = d.val
      omega
  have hw : ∀ d : Fin 512, iblk0 V c 1 t (ix2 j d)
      = V c main_arg3 (ix2 (feat (headOf ((((cfg0.win 3).blk t).view.emb (ix3 (0 : Fin 1) r j)) 0)) ((((cfg0.win 3).blk t).view.emb (ix3 (0 : Fin 1) r j)) 2)) d) := by
    intro d
    show V c main_arg3 (((cfg0.win 1).blk t).view.emb (ix2 j d)) = _
    refine congrArg (V c main_arg3) (funext fun a => Fin.ext ?_)
    match a with
    | ⟨0, _⟩ =>
      show win0_1.index t (0 : Fin 2) * 64 + 1 * j.val
        = (win0_3.index t (0 : Fin 3) * 1 + 1 * 0) / 4 * 64 + (win0_3.index t (2 : Fin 3) * 64 + 1 * j.val)
      omega
    | ⟨1, _⟩ =>
      show win0_1.index t (1 : Fin 2) * 512 + 1 * d.val = d.val
      omega
  have hb : iblk0 V c 2 t (ix3 (0 : Fin 1) (0 : Fin 1) j)
      = V c main_v0 (ix3 (headOf ((((cfg0.win 3).blk t).view.emb (ix3 (0 : Fin 1) r j)) 0)) (0 : Fin 1) ((((cfg0.win 3).blk t).view.emb (ix3 (0 : Fin 1) r j)) 2)) := by
    show V c main_v0 (((cfg0.win 2).blk t).view.emb (ix3 (0 : Fin 1) (0 : Fin 1) j)) = _
    refine congrArg (V c main_v0) (funext fun a => Fin.ext ?_)
    match a with
    | ⟨0, _⟩ =>
      show win0_2.index t (0 : Fin 3) * 1 + 1 * 0 = (win0_3.index t (0 : Fin 3) * 1 + 1 * 0) / 4
      omega
    | ⟨1, _⟩ =>
      show win0_2.index t (1 : Fin 3) * 1 + 1 * 0 = 0
      omega
    | ⟨2, _⟩ =>
      show win0_2.index t (2 : Fin 3) * 64 + 1 * j.val = win0_3.index t (2 : Fin 3) * 64 + 1 * j.val
      omega
  rw [hb]
  exact congrArg (· + _) (Finset.sum_congr rfl fun d _ => by rw [hx d, hw d])

/-- An index of the result lies in a point's block iff each coordinate lies in the block's range. -/
theorem mem_blk (t : Fin cfg0.N) (i : S32x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v1).slice (win0_3.rect t)).set ↔ _
  rw [View.set_slice_whole, Rect.mem_set_unit]
  exact Iff.rfl

/-- The blocks tile the result: row hb lies in block hb, position p in half p / 1024. -/
theorem cover (i : S32x2048x64.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The result array after the region is the head-major projection of the arrays the region found. -/
theorem final (c : Dev nD) : (dat0 V c).arrAt 3 cfg0.N = G V c :=
  (dat0 V c).arrAt_eq_of_cover 3 (G V c) (fun t _ => flushed_eq V c t) (cover)

end Cert.KArr0

end
-- ==== Proof.ArrProj1.lean ====
/-
  Projection kernel 1: from blocks to the whole array.

  The grid is (batch b, half s of the sequence, head h): 4 × 2 × 8 points.  At a point the kernel reads
  rows s·1024 … s·1024 + 1023 of batch b of the activation, rows h·64 … h·64 + 63 of the weight and the
  64 bias entries of head h, and writes the [1024, 64] block of row h·4 + b of the head-major result.
  Every entry of the result is therefore one function of the three arrays: the row of the activation
  against row h·64 + j of the weight, plus bias entry (h, j).  The blocks tile the result, so the array
  after the run is that function everywhere.
-/
import proofs.«123167_j8134668058670_2_alg».proof.Proof.Gen.KernelIdeal.Frame
import proofs.«123167_j8134668058670_2_alg».proof.Proof.Spec
import proofs.«123167_j8134668058670_2_alg».proof.Proof.BodyProj
import proofs.«123167_j8134668058670_2_alg».proof.Proof.Arrays
import Idealize.ShloMosaic.Lib.Pipeline.Value
import Idealize.ShloMosaic.Lib.ValueIdx

set_option maxRecDepth 16384

noncomputable section

namespace Cert.KArr1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The head-major projection of the region's three input arrays as it finds them. -/
def G (c : Dev nD) : S32x2048x64.Idx → EReal := Cert.KArrays.projArr (V c main_arg1) (V c main_arg5) (V c main_v2)

/-- The block indices of the four windows over the grid: batch, sequence half and head. -/
theorem idx_facts : ∀ t : Fin cfg1.N,
    win1_3.index t (0 : Fin 3) = win1_1.index t (0 : Fin 2) * 4 + win1_0.index t (0 : Fin 3)
    ∧ win1_0.index t (0 : Fin 3) < 4 ∧ win1_1.index t (0 : Fin 2) < 8
    ∧ win1_3.index t (1 : Fin 3) = win1_0.index t (1 : Fin 3) ∧ win1_0.index t (1 : Fin 3) < 2
    ∧ win1_0.index t (2 : Fin 3) = 0 ∧ win1_1.index t (1 : Fin 2) = 0
    ∧ win1_2.index t (0 : Fin 3) = win1_1.index t (0 : Fin 2) ∧ win1_2.index t (1 : Fin 3) = 0 ∧ win1_2.index t (2 : Fin 3) = 0
    ∧ win1_3.index t (2 : Fin 3) = 0 :=
  (by decide +kernel : ∀ t : Fin grid1.N, _)

/-- Every block of the result is some point's. -/
theorem idx_onto : ∀ (q0 : Fin 32) (q1 : Fin 2), ∃ t : Fin cfg1.N, win1_3.index t = ![q0.val, q1.val, 0] :=
  (by decide +kernel : ∀ (q0 : Fin 32) (q1 : Fin 2), ∃ t : Fin grid1.N, win1_3.index t = ![q0.val, q1.val, 0])

/-- What a point writes back is its block of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  obtain ⟨e0, e1, e2, e3, e4, e5, e6, e7, e8, e9, e10⟩ := idx_facts t
  funext y
  show out1_3 (iblk1 V c 0 t) (iblk1 V c 1 t) (iblk1 V c 2 t) y = G V c (((cfg1.win 3).blk t).view.emb y)
  obtain ⟨a, r, j, rfl⟩ : ∃ (a : Fin 1) (r : Fin 1024) (j : Fin 64), y = ix3 a r j := ⟨y 0, y 1, y 2, eq_ix3 y⟩
  obtain rfl : a = 0 := Subsingleton.elim _ _
  refine (Cert.KBody.proj1 _ _ _ r j).trans ?_
  unfold G Cert.KArrays.projArr
  have hx : ∀ d : Fin 512, iblk1 V c 0 t (ix3 (0 : Fin 1) r d)
      = V c main_arg1 (ix3 (batchOf ((((cfg1.win 3).blk t).view.emb (ix3 (0 : Fin 1) r j)) 0)) ((((cfg1.win 3).blk t).view.emb (ix3 (0 : Fin 1) r j)) 1) d) := by
    intro d
    show V c main_arg1 (((cfg1.win 0).blk t).view.emb (ix3 (0 : Fin 1) r d)) = _
    refine congrArg (V c main_arg1) (funext fun a => Fin.ext ?_)
    match a with
    | ⟨0, _⟩ =>
      show win1_0.index t (0 : Fin 3) * 1 + 1 * 0 = (win1_3.index t (0 : Fin 3) * 1 + 1 * 0) % 4
      omega
    | ⟨1, _⟩ =>
      show win1_0.index t (1 : Fin 3) * 1024 + 1 * r.val = win1_3.index t (1 : Fin 3) * 1024 + 1 * r.val
      omega
    | ⟨2, _⟩ =>
      show win1_0.index t (2 : Fin 3) * 512 + 1 * d.val = d.val
      omega
  have hw : ∀ d : Fin 512, iblk1 V c 1 t (ix2 j d)
      = V c main_arg5 (ix2 (feat (headOf ((((cfg1.win 3).blk t).view.emb (ix3 (0 : Fin 1) r j)) 0)) ((((cfg1.win 3).blk t).view.emb (ix3 (0 : Fin 1) r j)) 2)) d) := by
    intro d
    show V c main_arg5 (((cfg1.win 1).blk t).view.emb (ix2 j d)) = _
    refine congrArg (V c main_arg5) (funext fun a => Fin.ext ?_)
    match a with
    | ⟨0, _⟩ =>
      show win1_1.index t (0 : Fin 2) * 64 + 1 * j.val
        = (win1_3.index t (0 : Fin 3) * 1 + 1 * 0) / 4 * 64 + (win1_3.index t (2 : Fin 3) * 64 + 1 * j.val)
      omega
    | ⟨1, _⟩ =>
      show win1_1.index t (1 : Fin 2) * 512 + 1 * d.val = d.val
      omega
  have hb : iblk1 V c 2 t (ix3 (0 : Fin 1) (0 : Fin 1) j)
      = V c main_v2 (ix3 (headOf ((((cfg1.win 3).blk t).view.emb (ix3 (0 : Fin 1) r j)) 0)) (0 : Fin 1) ((((cfg1.win 3).blk t).view.emb (ix3 (0 : Fin 1) r j)) 2)) := by
    show V c main_v2 (((cfg1.win 2).blk t).view.emb (ix3 (0 : Fin 1) (0 : Fin 1) j)) = _
    refine congrArg (V c main_v2) (funext fun a => Fin.ext ?_)
    match a with
    | ⟨0, _⟩ =>
      show win1_2.index t (0 : Fin 3) * 1 + 1 * 0 = (win1_3.index t (0 : Fin 3) * 1 + 1 * 0) / 4
      omega
    | ⟨1, _⟩ =>
      show win1_2.index t (1 : Fin 3) * 1 + 1 * 0 = 0
      omega
    | ⟨2, _⟩ =>
      show win1_2.index t (2 : Fin 3) * 64 + 1 * j.val = win1_3.index t (2 : Fin 3) * 64 + 1 * j.val
      omega
  rw [hb]
  exact congrArg (· + _) (Finset.sum_congr rfl fun d _ => by rw [hx d, hw d])

/-- An index of the result lies in a point's block iff each coordinate lies in the block's range. -/
theorem mem_blk (t : Fin cfg1.N) (i : S32x2048x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v3).slice (win1_3.rect t)).set ↔ _
  rw [View.set_slice_whole, Rect.mem_set_unit]
  exact Iff.rfl

/-- The blocks tile the result: row hb lies in block hb, position p in half p / 1024. -/
theorem cover (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- The result array after the region is the head-major projection of the arrays the region found. -/
theorem final (c : Dev nD) : (dat1 V c).arrAt 3 cfg1.N = G V c :=
  (dat1 V c).arrAt_eq_of_cover 3 (G V c) (fun t _ => flushed_eq V c t) (cover)

end Cert.KArr1

end
-- ==== Proof.ArrProj2.lean ====
/-
  Projection kernel 2: from blocks to the whole array.

  The grid is (batch b, half s of the sequence, head h): 4 × 2 × 8 points.  At a point the kernel reads
  rows s·1024 … s·1024 + 1023 of batch b of the activation, rows h·64 … h·64 + 63 of the weight and the
  64 bias entries of head h, and writes the [1024, 64] block of row h·4 + b of the head-major result.
  Every entry of the result is therefore one function of the three arrays: the row of the activation
  against row h·64 + j of the weight, plus bias entry (h, j).  The blocks tile the result, so the array
  after the run is that function everywhere.
-/
import proofs.«123167_j8134668058670_2_alg».proof.Proof.Gen.KernelIdeal.Frame
import proofs.«123167_j8134668058670_2_alg».proof.Proof.Spec
import proofs.«123167_j8134668058670_2_alg».proof.Proof.BodyProj
import proofs.«123167_j8134668058670_2_alg».proof.Proof.Arrays
import Idealize.ShloMosaic.Lib.Pipeline.Value
import Idealize.ShloMosaic.Lib.ValueIdx

set_option maxRecDepth 16384

noncomputable section

namespace Cert.KArr2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The head-major projection of the region's three input arrays as it finds them. -/
def G (c : Dev nD) : S32x2048x64.Idx → EReal := Cert.KArrays.projArr (V c main_arg2) (V c main_arg7) (V c main_v4)

/-- The block indices of the four windows over the grid: batch, sequence half and head. -/
theorem idx_facts : ∀ t : Fin cfg2.N,
    win2_3.index t (0 : Fin 3) = win2_1.index t (0 : Fin 2) * 4 + win2_0.index t (0 : Fin 3)
    ∧ win2_0.index t (0 : Fin 3) < 4 ∧ win2_1.index t (0 : Fin 2) < 8
    ∧ win2_3.index t (1 : Fin 3) = win2_0.index t (1 : Fin 3) ∧ win2_0.index t (1 : Fin 3) < 2
    ∧ win2_0.index t (2 : Fin 3) = 0 ∧ win2_1.index t (1 : Fin 2) = 0
    ∧ win2_2.index t (0 : Fin 3) = win2_1.index t (0 : Fin 2) ∧ win2_2.index t (1 : Fin 3) = 0 ∧ win2_2.index t (2 : Fin 3) = 0
    ∧ win2_3.index t (2 : Fin 3) = 0 :=
  (by decide +kernel : ∀ t : Fin grid2.N, _)

/-- Every block of the result is some point's. -/
theorem idx_onto : ∀ (q0 : Fin 32) (q1 : Fin 2), ∃ t : Fin cfg2.N, win2_3.index t = ![q0.val, q1.val, 0] :=
  (by decide +kernel : ∀ (q0 : Fin 32) (q1 : Fin 2), ∃ t : Fin grid2.N, win2_3.index t = ![q0.val, q1.val, 0])

/-- What a point writes back is its block of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  obtain ⟨e0, e1, e2, e3, e4, e5, e6, e7, e8, e9, e10⟩ := idx_facts t
  funext y
  show out2_3 (iblk2 V c 0 t) (iblk2 V c 1 t) (iblk2 V c 2 t) y = G V c (((cfg2.win 3).blk t).view.emb y)
  obtain ⟨a, r, j, rfl⟩ : ∃ (a : Fin 1) (r : Fin 1024) (j : Fin 64), y = ix3 a r j := ⟨y 0, y 1, y 2, eq_ix3 y⟩
  obtain rfl : a = 0 := Subsingleton.elim _ _
  refine (Cert.KBody.proj2 _ _ _ r j).trans ?_
  unfold G Cert.KArrays.projArr
  have hx : ∀ d : Fin 512, iblk2 V c 0 t (ix3 (0 : Fin 1) r d)
      = V c main_arg2 (ix3 (batchOf ((((cfg2.win 3).blk t).view.emb (ix3 (0 : Fin 1) r j)) 0)) ((((cfg2.win 3).blk t).view.emb (ix3 (0 : Fin 1) r j)) 1) d) := by
    intro d
    show V c main_arg2 (((cfg2.win 0).blk t).view.emb (ix3 (0 : Fin 1) r d)) = _
    refine congrArg (V c main_arg2) (funext fun a => Fin.ext ?_)
    match a with
    | ⟨0, _⟩ =>
      show win2_0.index t (0 : Fin 3) * 1 + 1 * 0 = (win2_3.index t (0 : Fin 3) * 1 + 1 * 0) % 4
      omega
    | ⟨1, _⟩ =>
      show win2_0.index t (1 : Fin 3) * 1024 + 1 * r.val = win2_3.index t (1 : Fin 3) * 1024 + 1 * r.val
      omega
    | ⟨2, _⟩ =>
      show win2_0.index t (2 : Fin 3) * 512 + 1 * d.val = d.val
      omega
  have hw : ∀ d : Fin 512, iblk2 V c 1 t (ix2 j d)
      = V c main_arg7 (ix2 (feat (headOf ((((cfg2.win 3).blk t).view.emb (ix3 (0 : Fin 1) r j)) 0)) ((((cfg2.win 3).blk t).view.emb (ix3 (0 : Fin 1) r j)) 2)) d) := by
    intro d
    show V c main_arg7 (((cfg2.win 1).blk t).view.emb (ix2 j d)) = _
    refine congrArg (V c main_arg7) (funext fun a => Fin.ext ?_)
    match a with
    | ⟨0, _⟩ =>
      show win2_1.index t (0 : Fin 2) * 64 + 1 * j.val
        = (win2_3.index t (0 : Fin 3) * 1 + 1 * 0) / 4 * 64 + (win2_3.index t (2 : Fin 3) * 64 + 1 * j.val)
      omega
    | ⟨1, _⟩ =>
      show win2_1.index t (1 : Fin 2) * 512 + 1 * d.val = d.val
      omega
  have hb : iblk2 V c 2 t (ix3 (0 : Fin 1) (0 : Fin 1) j)
      = V c main_v4 (ix3 (headOf ((((cfg2.win 3).blk t).view.emb (ix3 (0 : Fin 1) r j)) 0)) (0 : Fin 1) ((((cfg2.win 3).blk t).view.emb (ix3 (0 : Fin 1) r j)) 2)) := by
    show V c main_v4 (((cfg2.win 2).blk t).view.emb (ix3 (0 : Fin 1) (0 : Fin 1) j)) = _
    refine congrArg (V c main_v4) (funext fun a => Fin.ext ?_)
    match a with
    | ⟨0, _⟩ =>
      show win2_2.index t (0 : Fin 3) * 1 + 1 * 0 = (win2_3.index t (0 : Fin 3) * 1 + 1 * 0) / 4
      omega
    | ⟨1, _⟩ =>
      show win2_2.index t (1 : Fin 3) * 1 + 1 * 0 = 0
      omega
    | ⟨2, _⟩ =>
      show win2_2.index t (2 : Fin 3) * 64 + 1 * j.val = win2_3.index t (2 : Fin 3) * 64 + 1 * j.val
      omega
  rw [hb]
  exact congrArg (· + _) (Finset.sum_congr rfl fun d _ => by rw [hx d, hw d])

/-- An index of the result lies in a point's block iff each coordinate lies in the block's range. -/
theorem mem_blk (t : Fin cfg2.N) (i : S32x2048x64.Idx) :
    i ∈ ((cfg2.win 3).blk t).view.set ↔ ∀ a : Fin 3, win2_3.index t a * S1x1024x64.size a ≤ (i a).val ∧ (i a).val < win2_3.index t a * S1x1024x64.size a + S1x1024x64.size a := by
  show i ∈ ((View.whole main_v5).slice (win2_3.rect t)).set ↔ _
  rw [View.set_slice_whole, Rect.mem_set_unit]
  exact Iff.rfl

/-- The blocks tile the result: row hb lies in block hb, position p in half p / 1024. -/
theorem cover (i : S32x2048x64.Idx) : ∃ t : Fin cfg2.N, (cfg2.win 3).flush t = true ∧ i ∈ ((cfg2.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win2_3.index t (0 : Fin 3) = (i 0).val := congrFun ht 0
  have q1 : win2_3.index t (1 : Fin 3) = (i 1).val / 1024 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 64 ≤ (i 2).val ∧ (i 2).val < win2_3.index t (2 : Fin 3) * 64 + 64; omega

/-- The result array after the region is the head-major projection of the arrays the region found. -/
theorem final (c : Dev nD) : (dat2 V c).arrAt 3 cfg2.N = G V c :=
  (dat2 V c).arrAt_eq_of_cover 3 (G V c) (fun t _ => flushed_eq V c t) (cover)

end Cert.KArr2

end
-- ==== Proof.BodyAttn.lean ====
/-
  The attention kernel's body read at an index.  For one head and one batch row, with a block of 1024
  queries Q : [1, 1024, 64] and all 2048 keys and values K, V : [1, 2048, 64]:
      score[r, k] = (∑ j, Q[0, r, j] · K[0, k, j]) · 0.125,
      P[0, r, k]  = softmax of the score row r (the row maximum subtracted before the exponential),
      O[0, r, j]  = ∑ k, P[0, r, k] · V[0, k, j].
-/
import proofs.«123167_j8134668058670_2_alg».proof.Proof.Spec
import proofs.«123167_j8134668058670_2_alg».proof.Proof.LibBody
import proofs.«123167_j8134668058670_2_alg».proof.Proof.Gen.KernelIdeal.Frame

noncomputable section

namespace Cert.KBody

open Idealize.ShloMosaic Idealize.ShloMosaic.ValueIdx Cert.KernelIdeal Cert.KernelIdeal.Gen

theorem hz3' : (![0, 0, 0] : Fin 3 → Nat) = fun _ => 0 := funext fun a => by fin_cases a <;> rfl

/-- The scaled score of query r against key k. -/
def scoreAt (x0 : Vec Ideal S1x1024x64 .f32) (x1 : Vec Ideal S1x2048x64 .f32) (r : Fin 1024) (k : Fin 2048) : EReal :=
  (∑ j : Fin 64, x0 (ix3 (0 : Fin 1) r j) * x1 (ix3 (0 : Fin 1) k j)) * Ideal.ofBits .f32 0x3E000000#32

/-- The scaled scores as the body computes them: the product of the queries with the transposed keys, times 0.125. -/
def scoreV (v0 : Vec Ideal S1x1024x64 .f32) (v3 : Vec Ideal S1x2048x64 .f32) : FVec Ideal S1024x2048 .f32 :=
  mulf (matmul dot_S1024x64_S64x2048_S1024x2048_1_0_0_1_n_n none
      (truncf .bf16 (shapeCast S1024x64 v0 shapeCasts_S1x1024x64_S1024x64) bitsLt_bf16_f32)
      (transpose S64x2048 [1, 0] (truncf .bf16 (shapeCast S2048x64 v3 shapeCasts_S1x2048x64_S2048x64) bitsLt_bf16_f32)
        transposes_S2048x64_p1_0_S64x2048)
      (constant S1024x2048 .f32 0x00000000#32))
    (broadcast S1024x2048 (Scalar.ofBits .f32 0x3E000000#32))

/-- The exponentials of the scores less their row maxima, as the body computes them. -/
def expV (v0 : Vec Ideal S1x1024x64 .f32) (v3 : Vec Ideal S1x2048x64 .f32) : FVec Ideal S1024x2048 .f32 :=
  exp (subf (scoreV v0 v3) (broadcastTo S1024x2048 (shapeCast S1024x1
    (multiReduction .maximumf [1] S1024 (scoreV v0 v3) 0xFF800000#32 reduces_S1024x2048_S1024 (.inl rfl) rfl)
    shapeCasts_S1024_S1024x1) broadcasts_S1024x1_S1024x2048))

/-- The body's probabilities are the exponentials over their row sums. -/
theorem pay1_eq (v0 : Vec Ideal S1x1024x64 .f32) (v3 : Vec Ideal S1x2048x64 .f32) :
    k3_pay1 (F := Ideal) v0 v3 = divf (expV v0 v3) (broadcastTo S1024x2048 (shapeCast S1024x1
      (multiReduction .add [1] S1024 (expV v0 v3) 0x00000000#32 reduces_S1024x2048_S1024 (.inl rfl) rfl)
      shapeCasts_S1024_S1024x1) broadcasts_S1024x1_S1024x2048) := rfl

theorem scoreV_apply (v0 : Vec Ideal S1x1024x64 .f32) (v3 : Vec Ideal S1x2048x64 .f32) (r : Fin 1024) (k : Fin 2048) :
    scoreV v0 v3 (ix2 r k) = scoreAt v0 v3 r k := by
  unfold scoreV scoreAt
  refine (mulf_apply _ _ _).trans ?_
  refine congrArg₂ (· * ·) ?_ rfl
  refine (matmul_plain_apply _ none _ _ r k).trans ?_
  refine Finset.sum_congr rfl fun j _ => ?_
  refine congrArg₂ (· * ·) ?_ ?_
  · refine (truncf_apply (φ := .f32) (ψ := .bf16) _ _ _).trans ?_
    exact shapeCast_1ab_ab_apply _ _ r j
  · refine (transpose_ix2_apply _ _ j k).trans ?_
    refine (truncf_apply (φ := .f32) (ψ := .bf16) _ _ _).trans ?_
    exact shapeCast_1ab_ab_apply _ _ k j

/-- The row maximum the body takes is the specification's. -/
theorem rowMaxV_apply (v0 : Vec Ideal S1x1024x64 .f32) (v3 : Vec Ideal S1x2048x64 .f32) (r : Fin 1024) :
    multiReduction (F := Ideal) .maximumf [1] S1024 (scoreV v0 v3) 0xFF800000#32 reduces_S1024x2048_S1024 (.inl rfl) rfl (ix1 r)
      = Cert.Spec.rowMax (scoreAt v0 v3 r) := by
  refine (rowMax_apply (scoreV v0 v3) reduces_S1024x2048_S1024 (.inl rfl) rfl r).trans ?_
  unfold Cert.Spec.rowMax
  have hf : (fun k : Fin 2048 => scoreV v0 v3 (ix2 r k)) = scoreAt v0 v3 r := funext fun k => scoreV_apply v0 v3 r k
  rw [hf]

/-- The body's exponentials are the specification's. -/
theorem expV_apply (v0 : Vec Ideal S1x1024x64 .f32) (v3 : Vec Ideal S1x2048x64 .f32) (r : Fin 1024) (k : Fin 2048) :
    expV v0 v3 (ix2 r k) = Cert.Spec.expRow (scoreAt v0 v3 r) k := by
  unfold expV Cert.Spec.expRow
  change Ideal.exp _ = Ideal.exp _
  refine congrArg Ideal.exp ?_
  refine (subf_apply _ _ _).trans ?_
  refine congrArg₂ (· - ·) (scoreV_apply v0 v3 r k) ?_
  refine (broadcastTo_a1_ab_apply _ _ r k).trans ?_
  refine (shapeCast_a_a1_apply _ _ r (0 : Fin 1)).trans ?_
  exact rowMaxV_apply v0 v3 r

/-- The body's probabilities at (r, k): the softmax of score row r. -/
theorem pay1_apply (v0 : Vec Ideal S1x1024x64 .f32) (v3 : Vec Ideal S1x2048x64 .f32) (r : Fin 1024) (k : Fin 2048) :
    k3_pay1 (F := Ideal) v0 v3 (ix2 r k) = Cert.Spec.softRow (scoreAt v0 v3 r) k := by
  rw [pay1_eq]
  unfold Cert.Spec.softRow
  refine (divf_apply _ _ _).trans ?_
  refine congrArg₂ Ideal.div (expV_apply v0 v3 r k) ?_
  refine (broadcastTo_a1_ab_apply _ _ r k).trans ?_
  refine (shapeCast_a_a1_apply _ _ r (0 : Fin 1)).trans ?_
  refine (rowSum_apply (expV v0 v3) reduces_S1024x2048_S1024 (.inl rfl) rfl r).trans ?_
  exact Finset.sum_congr rfl fun k' _ => expV_apply v0 v3 r k'

/-- The attention kernel's probabilities block at (0, r, k). -/
theorem attnP (x0 : Vec Ideal S1x1024x64 .f32) (x1 x2 : Vec Ideal S1x2048x64 .f32) (r : Fin 1024) (k : Fin 2048) :
    out3_4 (F := Ideal) x0 x1 x2 (ix3 (0 : Fin 1) r k)
      = Cert.Spec.softRow (fun k' => (∑ j : Fin 64, x0 (ix3 (0 : Fin 1) r j) * x1 (ix3 (0 : Fin 1) k' j)) * Ideal.ofBits .f32 0x3E000000#32) k := by
  unfold out3_4
  rw [View.canon_unit_zero hz3']
  simp only [View.ld_unit_zero (S := S1x1024x64) hz3', View.ld_unit_zero (S := S1x2048x64) hz3']
  unfold k3_pay2
  refine (shapeCast_ab_1ab_apply _ _ (0 : Fin 1) r k).trans ?_
  exact pay1_apply x0 x1 r k

/-- The attention kernel's context block at (0, r, j). -/
theorem attnO (x0 : Vec Ideal S1x1024x64 .f32) (x1 x2 : Vec Ideal S1x2048x64 .f32) (r : Fin 1024) (j : Fin 64) :
    out3_3 (F := Ideal) x0 x1 x2 (ix3 (0 : Fin 1) r j)
      = ∑ k : Fin 2048, Cert.Spec.softRow (fun k' => (∑ j' : Fin 64, x0 (ix3 (0 : Fin 1) r j') * x1 (ix3 (0 : Fin 1) k' j')) * Ideal.ofBits .f32 0x3E000000#32) k * x2 (ix3 (0 : Fin 1) k j) := by
  unfold out3_3
  rw [View.canon_unit_zero hz3']
  simp only [View.ld_unit_zero (S := S1x1024x64) hz3', View.ld_unit_zero (S := S1x2048x64) hz3']
  unfold k3_pay3
  refine (shapeCast_ab_1ab_apply _ _ (0 : Fin 1) r j).trans ?_
  refine (matmul_plain_apply _ none _ _ r j).trans ?_
  refine Finset.sum_congr rfl fun k _ => ?_
  refine congrArg₂ (· * ·) ?_ ?_
  · refine (truncf_apply (φ := .f32) (ψ := .bf16) _ _ _).trans ?_
    exact pay1_apply x0 x1 r k
  · refine (truncf_apply (φ := .f32) (ψ := .bf16) _ _ _).trans ?_
    exact shapeCast_1ab_ab_apply _ _ k j

end Cert.KBody

end
-- ==== Proof.ArrAttn.lean ====
/-
  The attention kernel: from blocks to the two whole arrays.

  The grid is (row hb of the head-major arrays, half qi of the queries): 32 × 2 points.  At a point the
  kernel reads the 1024 queries of its half, all 2048 keys and all 2048 values of row hb, and writes the
  [1024, 2048] block of probabilities and the [1024, 64] block of contexts of those queries.  A row of
  probabilities depends on its own query and on every key of row hb, a context entry also on every
  value; both are one function of the three arrays, and the blocks tile both results.
-/
import proofs.«123167_j8134668058670_2_alg».proof.Proof.Gen.KernelIdeal.Frame
import proofs.«123167_j8134668058670_2_alg».proof.Proof.Spec
import proofs.«123167_j8134668058670_2_alg».proof.Proof.BodyAttn
import proofs.«123167_j8134668058670_2_alg».proof.Proof.Arrays
import Idealize.ShloMosaic.Lib.Pipeline.Value
import Idealize.ShloMosaic.Lib.ValueIdx

set_option maxRecDepth 16384

noncomputable section

namespace Cert.KArr3

open Cert.KernelIdeal Cert.KernelIdeal.Gen Cert.Spec Cert.KArrays
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The probabilities and the contexts of the region's three input arrays as it finds them. -/
def GP (c : Dev nD) : S32x2048x2048.Idx → EReal := probArr (V c main_v1) (V c main_v3)
def GO (c : Dev nD) : S32x2048x64.Idx → EReal := ctxArr (V c main_v1) (V c main_v3) (V c main_v5)

/-- The block indices of the five windows over the grid: the row and the half of the queries. -/
theorem idx_facts : ∀ t : Fin cfg3.N,
    win3_0.index t (0 : Fin 3) = win3_4.index t (0 : Fin 3) ∧ win3_0.index t (1 : Fin 3) = win3_4.index t (1 : Fin 3) ∧ win3_0.index t (2 : Fin 3) = 0
    ∧ win3_1.index t (0 : Fin 3) = win3_4.index t (0 : Fin 3) ∧ win3_1.index t (1 : Fin 3) = 0 ∧ win3_1.index t (2 : Fin 3) = 0
    ∧ win3_2.index t (0 : Fin 3) = win3_4.index t (0 : Fin 3) ∧ win3_2.index t (1 : Fin 3) = 0 ∧ win3_2.index t (2 : Fin 3) = 0
    ∧ win3_3.index t (0 : Fin 3) = win3_4.index t (0 : Fin 3) ∧ win3_3.index t (1 : Fin 3) = win3_4.index t (1 : Fin 3) ∧ win3_3.index t (2 : Fin 3) = 0
    ∧ win3_4.index t (2 : Fin 3) = 0 ∧ win3_4.index t (0 : Fin 3) < 32 ∧ win3_4.index t (1 : Fin 3) < 2 :=
  (by decide +kernel : ∀ t : Fin grid3.N, _)

/-- Every block of either result is some point's. -/
theorem idx_onto : ∀ (q0 : Fin 32) (q1 : Fin 2), ∃ t : Fin cfg3.N, win3_4.index t = ![q0.val, q1.val, 0] ∧ win3_3.index t = ![q0.val, q1.val, 0] :=
  (by decide +kernel : ∀ (q0 : Fin 32) (q1 : Fin 2), ∃ t : Fin grid3.N, win3_4.index t = ![q0.val, q1.val, 0] ∧ win3_3.index t = ![q0.val, q1.val, 0])

/-- A query of the point's block is query (hb, qi·1024 + r) of the array. -/
theorem q_at (c : Dev nD) (t : Fin cfg3.N) (r : Fin 1024) (j : Fin 64) (hb : Fin 32) (q : Fin 2048)
    (h0 : hb.val = win3_4.index t (0 : Fin 3)) (h1 : q.val = win3_4.index t (1 : Fin 3) * 1024 + r.val) :
    iblk3 V c 0 t (ix3 (0 : Fin 1) r j) = (V c main_v1 : S32x2048x64.Idx → EReal) (ix3 hb q j) := by
  obtain ⟨e0, e1, e2, e3, e4, e5, e6, e7, e8, e9, e10, e11, e12, e13, e14⟩ := idx_facts t
  show V c main_v1 (((cfg3.win 0).blk t).view.emb (ix3 (0 : Fin 1) r j)) = _
  refine congrArg (V c main_v1) (funext fun a => Fin.ext ?_)
  match a with
  | ⟨0, _⟩ => show win3_0.index t (0 : Fin 3) * 1 + 1 * 0 = hb.val; omega
  | ⟨1, _⟩ => show win3_0.index t (1 : Fin 3) * 1024 + 1 * r.val = q.val; omega
  | ⟨2, _⟩ => show win3_0.index t (2 : Fin 3) * 64 + 1 * j.val = j.val; omega

/-- A key of the point's block is key (hb, k) of the array. -/
theorem k_at (c : Dev nD) (t : Fin cfg3.N) (k : Fin 2048) (j : Fin 64) (hb : Fin 32)
    (h0 : hb.val = win3_4.index t (0 : Fin 3)) :
    iblk3 V c 1 t (ix3 (0 : Fin 1) k j) = (V c main_v3 : S32x2048x64.Idx → EReal) (ix3 hb k j) := by
  obtain ⟨e0, e1, e2, e3, e4, e5, e6, e7, e8, e9, e10, e11, e12, e13, e14⟩ := idx_facts t
  show V c main_v3 (((cfg3.win 1).blk t).view.emb (ix3 (0 : Fin 1) k j)) = _
  refine congrArg (V c main_v3) (funext fun a => Fin.ext ?_)
  match a with
  | ⟨0, _⟩ => show win3_1.index t (0 : Fin 3) * 1 + 1 * 0 = hb.val; omega
  | ⟨1, _⟩ => show win3_1.index t (1 : Fin 3) * 2048 + 1 * k.val = k.val; omega
  | ⟨2, _⟩ => show win3_1.index t (2 : Fin 3) * 64 + 1 * j.val = j.val; omega

/-- A value of the point's block is value (hb, k) of the array. -/
theorem v_at (c : Dev nD) (t : Fin cfg3.N) (k : Fin 2048) (j : Fin 64) (hb : Fin 32)
    (h0 : hb.val = win3_4.index t (0 : Fin 3)) :
    iblk3 V c 2 t (ix3 (0 : Fin 1) k j) = (V c main_v5 : S32x2048x64.Idx → EReal) (ix3 hb k j) := by
  obtain ⟨e0, e1, e2, e3, e4, e5, e6, e7, e8, e9, e10, e11, e12, e13, e14⟩ := idx_facts t
  show V c main_v5 (((cfg3.win 2).blk t).view.emb (ix3 (0 : Fin 1) k j)) = _
  refine congrArg (V c main_v5) (funext fun a => Fin.ext ?_)
  match a with
  | ⟨0, _⟩ => show win3_2.index t (0 : Fin 3) * 1 + 1 * 0 = hb.val; omega
  | ⟨1, _⟩ => show win3_2.index t (1 : Fin 3) * 2048 + 1 * k.val = k.val; omega
  | ⟨2, _⟩ => show win3_2.index t (2 : Fin 3) * 64 + 1 * j.val = j.val; omega

/-- A score row computed from blocks is the array's score row once the blocks' queries and keys are the array's. -/
theorem score_gen (x0 : Vec Ideal S1x1024x64 .f32) (x1 : Vec Ideal S1x2048x64 .f32) (Q K : S32x2048x64.Idx → EReal)
    (r : Fin 1024) (hb : Fin 32) (q : Fin 2048)
    (hq : ∀ j : Fin 64, x0 (ix3 (0 : Fin 1) r j) = Q (ix3 hb q j))
    (hk : ∀ (k' : Fin 2048) (j : Fin 64), x1 (ix3 (0 : Fin 1) k' j) = K (ix3 hb k' j)) :
    (fun k' : Fin 2048 => (∑ j : Fin 64, x0 (ix3 (0 : Fin 1) r j) * x1 (ix3 (0 : Fin 1) k' j)) * Ideal.ofBits .f32 0x3E000000#32)
      = scoreRow Q K hb q :=
  funext fun k' => congrArg (· * _) (Finset.sum_congr rfl fun j _ => by rw [hq j, hk k' j])

/-- What a point writes back of the probabilities is its block of `GP`. -/
theorem flushedP_eq (c : Dev nD) (t : Fin cfg3.N) :
    (dat3 V c).flushed 4 t = ((cfg3.win 4).blk t).view.read (Elt Ideal) (GP V c) := by
  show (cfg3.win 4).cut (grid3.coords t) ((dat3 V c).after 4 t) = _
  rw [after3_4]
  funext y
  show out3_4 (iblk3 V c 0 t) (iblk3 V c 1 t) (iblk3 V c 2 t) y = GP V c (((cfg3.win 4).blk t).view.emb y)
  obtain ⟨a, r, k, rfl⟩ : ∃ (a : Fin 1) (r : Fin 1024) (k : Fin 2048), y = ix3 a r k := ⟨y 0, y 1, y 2, eq_ix3 y⟩
  obtain rfl : a = 0 := Subsingleton.elim _ _
  refine (Cert.KBody.attnP _ _ _ r k).trans ?_
  obtain ⟨e0, e1, e2, e3, e4, e5, e6, e7, e8, e9, e10, e11, e12, e13, e14⟩ := idx_facts t
  unfold GP probArr
  have h0 : ((((cfg3.win 4).blk t).view.emb (ix3 (0 : Fin 1) r k)) 0).val = win3_4.index t (0 : Fin 3) := by
    show win3_4.index t (0 : Fin 3) * 1 + 1 * 0 = _; omega
  have h1 : ((((cfg3.win 4).blk t).view.emb (ix3 (0 : Fin 1) r k)) 1).val = win3_4.index t (1 : Fin 3) * 1024 + r.val := by
    show win3_4.index t (1 : Fin 3) * 1024 + 1 * r.val = _; omega
  have h2 : ((((cfg3.win 4).blk t).view.emb (ix3 (0 : Fin 1) r k)) 2) = k := Fin.ext (by
    show win3_4.index t (2 : Fin 3) * 2048 + 1 * k.val = _; omega)
  rw [score_gen (iblk3 V c 0 t) (iblk3 V c 1 t) (V c main_v1) (V c main_v3) r _ _ (fun j => q_at V c t r j _ _ h0 h1) (fun k' j => k_at V c t k' j _ h0), h2]

/-- What a point writes back of the contexts is its block of `GO`. -/
theorem flushedO_eq (c : Dev nD) (t : Fin cfg3.N) :
    (dat3 V c).flushed 3 t = ((cfg3.win 3).blk t).view.read (Elt Ideal) (GO V c) := by
  show (cfg3.win 3).cut (grid3.coords t) ((dat3 V c).after 3 t) = _
  rw [after3_3]
  funext y
  show out3_3 (iblk3 V c 0 t) (iblk3 V c 1 t) (iblk3 V c 2 t) y = GO V c (((cfg3.win 3).blk t).view.emb y)
  obtain ⟨a, r, j, rfl⟩ : ∃ (a : Fin 1) (r : Fin 1024) (j : Fin 64), y = ix3 a r j := ⟨y 0, y 1, y 2, eq_ix3 y⟩
  obtain rfl : a = 0 := Subsingleton.elim _ _
  refine (Cert.KBody.attnO _ _ _ r j).trans ?_
  obtain ⟨e0, e1, e2, e3, e4, e5, e6, e7, e8, e9, e10, e11, e12, e13, e14⟩ := idx_facts t
  unfold GO ctxArr
  have h0 : ((((cfg3.win 3).blk t).view.emb (ix3 (0 : Fin 1) r j)) 0).val = win3_4.index t (0 : Fin 3) := by
    show win3_3.index t (0 : Fin 3) * 1 + 1 * 0 = _; omega
  have h1 : ((((cfg3.win 3).blk t).view.emb (ix3 (0 : Fin 1) r j)) 1).val = win3_4.index t (1 : Fin 3) * 1024 + r.val := by
    show win3_3.index t (1 : Fin 3) * 1024 + 1 * r.val = _; omega
  have h2 : ((((cfg3.win 3).blk t).view.emb (ix3 (0 : Fin 1) r j)) 2) = j := Fin.ext (by
    show win3_3.index t (2 : Fin 3) * 64 + 1 * j.val = _; omega)
  rw [score_gen (iblk3 V c 0 t) (iblk3 V c 1 t) (V c main_v1) (V c main_v3) r _ _ (fun j => q_at V c t r j _ _ h0 h1) (fun k' j => k_at V c t k' j _ h0), h2]
  exact Finset.sum_congr rfl fun k _ => by rw [v_at V c t k j _ h0]

theorem mem_blkP (t : Fin cfg3.N) (i : S32x2048x2048.Idx) :
    i ∈ ((cfg3.win 4).blk t).view.set ↔ ∀ a : Fin 3, win3_4.index t a * S1x1024x2048.size a ≤ (i a).val ∧ (i a).val < win3_4.index t a * S1x1024x2048.size a + S1x1024x2048.size a := by
  show i ∈ ((View.whole main_v6_1).slice (win3_4.rect t)).set ↔ _
  rw [View.set_slice_whole, Rect.mem_set_unit]
  exact Iff.rfl

theorem mem_blkO (t : Fin cfg3.N) (i : S32x2048x64.Idx) :
    i ∈ ((cfg3.win 3).blk t).view.set ↔ ∀ a : Fin 3, win3_3.index t a * S1x1024x64.size a ≤ (i a).val ∧ (i a).val < win3_3.index t a * S1x1024x64.size a + S1x1024x64.size a := by
  show i ∈ ((View.whole main_v6_0).slice (win3_3.rect t)).set ↔ _
  rw [View.set_slice_whole, Rect.mem_set_unit]
  exact Iff.rfl

/-- The probability blocks tile their array. -/
theorem coverP (i : S32x2048x2048.Idx) : ∃ t : Fin cfg3.N, (cfg3.win 4).flush t = true ∧ i ∈ ((cfg3.win 4).blk t).view.set := by
  have hi0 : (i 0).val < 32 := (i 0).isLt
  have hi1 : (i 1).val < 2048 := (i 1).isLt
  have hi2 : (i 2).val < 2048 := (i 2).isLt
  obtain ⟨t, ht, -⟩ := idx_onto ⟨(i 0).val, hi0⟩ ⟨(i 1).val / 1024, by omega⟩
  have q0 : win3_4.index t (0 : Fin 3) = (i 0).val := congrFun ht 0
  have q1 : win3_4.index t (1 : Fin 3) = (i 1).val / 1024 := congrFun ht 1
  have q2 : win3_4.index t (2 : Fin 3) = 0 := congrFun ht 2
  refine ⟨t, flush3_4 t, ?_⟩
  rw [mem_blkP]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 1024 ≤ (i 1).val ∧ (i 1).val < win3_4.index t (1 : Fin 3) * 1024 + 1024; omega
  | ⟨2, _⟩ => show win3_4.index t (2 : Fin 3) * 2048 ≤ (i 2).val ∧ (i 2).val < win3_4.index t (2 : Fin 3) * 2048 + 2048; omega

/-- The context blocks tile their array. -/
theorem coverO (i : S32x2048x64.Idx) : ∃ t : Fin cfg3.N, (cfg3.win 3).flush t = true ∧ i ∈ ((cfg3.win 3).blk t).view.set := by
  have hi0 : (i 0).val < 32 := (i 0).isLt
  have hi1 : (i 1).val < 2048 := (i 1).isLt
  have hi2 : (i 2).val < 64 := (i 2).isLt
  obtain ⟨t, -, ht⟩ := idx_onto ⟨(i 0).val, hi0⟩ ⟨(i 1).val / 1024, by omega⟩
  have q0 : win3_3.index t (0 : Fin 3) = (i 0).val := congrFun ht 0
  have q1 : win3_3.index t (1 : Fin 3) = (i 1).val / 1024 := congrFun ht 1
  have q2 : win3_3.index t (2 : Fin 3) = 0 := congrFun ht 2
  refine ⟨t, flush3_3 t, ?_⟩
  rw [mem_blkO]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 1024 ≤ (i 1).val ∧ (i 1).val < win3_3.index t (1 : Fin 3) * 1024 + 1024; omega
  | ⟨2, _⟩ => show win3_3.index t (2 : Fin 3) * 64 ≤ (i 2).val ∧ (i 2).val < win3_3.index t (2 : Fin 3) * 64 + 64; omega

/-- The probabilities after the region. -/
theorem finalP (c : Dev nD) : (dat3 V c).arrAt 4 cfg3.N = GP V c :=
  (dat3 V c).arrAt_eq_of_cover 4 (GP V c) (fun t _ => flushedP_eq V c t) (coverP)

/-- The contexts after the region. -/
theorem finalO (c : Dev nD) : (dat3 V c).arrAt 3 cfg3.N = GO V c :=
  (dat3 V c).arrAt_eq_of_cover 3 (GO V c) (fun t _ => flushedO_eq V c t) (coverO)

end Cert.KArr3

end
-- ==== Proof.BodyLayer.lean ====
/-
  The output-projection kernel's body read at an index.  For one batch row and a block of 1024 positions,
  with the eight heads' contexts O : [8, 1, 1024, 64], the weight W : [8, 512, 64] (W[h, d, j] multiplies
  head h's feature j into model feature d), a bias, the residual block, a gain and a shift:
      row[d]       = ((∑ h, ∑ j, O[h, 0, r, j] · W[h, d, j]) + bias[0, d]) + res[0, r, d],
      out[0, r, d] = the layer norm of row at d.
  The body adds the eight heads' products in order from a zero matrix.
-/
import proofs.«123167_j8134668058670_2_alg».proof.Proof.Spec
import proofs.«123167_j8134668058670_2_alg».proof.Proof.LibBody
import proofs.«123167_j8134668058670_2_alg».proof.Proof.Gen.KernelIdeal.Frame

noncomputable section

namespace Cert.KBody

open Idealize.ShloMosaic Idealize.ShloMosaic.ValueIdx Cert.KernelIdeal Cert.KernelIdeal.Gen

variable {α : Type}

theorem hz3'' : (![0, 0, 0] : Fin 3 → Nat) = fun _ => 0 := funext fun a => by fin_cases a <;> rfl
theorem hz2'' : (![0, 0] : Fin 2 → Nat) = fun _ => 0 := funext fun a => by fin_cases a <;> rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- Head `o`'s `[1, 1, 1024, 64]` slab of the `[8, 1, 1024, 64]` block, read at an index. -/
theorem ld_slab4 (x : Vec Ideal S8x1x1024x64 .f32) (o : ℕ) (ho : o < 8) (inb) (r : Fin 1024) (j : Fin 64) :
    View.ld x (Rect.unit (s := S8x1x1024x64) ![o, 0, 0, 0] S1x1x1024x64.size inb) (ix4 (0 : Fin 1) (0 : Fin 1) r j)
      = x (ix4 (⟨o, ho⟩ : Fin 8) (0 : Fin 1) r j) := by
  show x _ = x _
  refine congrArg x (funext fun a => Fin.ext ?_)
  fin_cases a
  · show o + 1 * 0 = o; omega
  · show 0 + 1 * 0 = 0; omega
  · show 0 + 1 * r.val = r.val; omega
  · show 0 + 1 * j.val = j.val; omega

/-- Head `o`'s `[1, 512, 64]` slab of the `[8, 512, 64]` weight block, read at an index. -/
theorem ld_slab3 (x : Vec Ideal S8x512x64 .f32) (o : ℕ) (ho : o < 8) (inb) (d : Fin 512) (j : Fin 64) :
    View.ld x (Rect.unit (s := S8x512x64) ![o, 0, 0] S1x512x64.size inb) (ix3 (0 : Fin 1) d j)
      = x (ix3 (⟨o, ho⟩ : Fin 8) d j) := by
  show x _ = x _
  refine congrArg x (funext fun a => Fin.ext ?_)
  fin_cases a
  · show o + 1 * 0 = o; omega
  · show 0 + 1 * d.val = d.val; omega
  · show 0 + 1 * j.val = j.val; omega

/-- One head's product as the body computes it: the head's contexts against its transposed weight slab. -/
def headV (v1 : Vec Ideal S1x1x1024x64 .f32) (v4 : Vec Ideal S1x512x64 .f32) : FVec Ideal S1024x512 .f32 :=
  matmul dot_S1024x64_S64x512_S1024x512_1_0_0_1_n_n none
    (truncf .bf16 (shapeCast S1024x64 v1 shapeCasts_S1x1x1024x64_S1024x64) bitsLt_bf16_f32)
    (transpose S64x512 [1, 0] (truncf .bf16 (shapeCast S512x64 v4 shapeCasts_S1x512x64_S512x64) bitsLt_bf16_f32)
      transposes_S512x64_p1_0_S64x512)
    (constant S1024x512 .f32 0x00000000#32)

theorem headV_apply (v1 : Vec Ideal S1x1x1024x64 .f32) (v4 : Vec Ideal S1x512x64 .f32) (r : Fin 1024) (d : Fin 512) :
    headV v1 v4 (ix2 r d) = ∑ j : Fin 64, v1 (ix4 (0 : Fin 1) (0 : Fin 1) r j) * v4 (ix3 (0 : Fin 1) d j) := by
  unfold headV
  refine (matmul_plain_apply _ none _ _ r d).trans ?_
  refine Finset.sum_congr rfl fun j _ => ?_
  refine congrArg₂ (· * ·) ?_ ?_
  · refine (truncf_apply (φ := .f32) (ψ := .bf16) _ _ _).trans ?_
    exact shapeCast_11ab_ab_apply _ _ r j
  · refine (transpose_ix2_apply _ _ j d).trans ?_
    refine (truncf_apply (φ := .f32) (ψ := .bf16) _ _ _).trans ?_
    exact shapeCast_1ab_ab_apply _ _ d j

/-- The first three heads, added in order from the zero matrix. -/
theorem pay2_eq (v1 : Vec Ideal S1x1x1024x64 .f32) (v4 : Vec Ideal S1x512x64 .f32) (v10 : Vec Ideal S1x1x1024x64 .f32)
    (v13 : Vec Ideal S1x512x64 .f32) (v19 : Vec Ideal S1x1x1024x64 .f32) (v22 : Vec Ideal S1x512x64 .f32) :
    k4_pay2 (F := Ideal) v1 v4 v10 v13 v19 v22
      = addf (addf (addf (broadcast S1024x512 (Scalar.ofBits (F := Ideal) .f32 0x00000000#32)) (headV v1 v4)) (headV v10 v13)) (headV v19 v22) := rfl

/-- The next three heads. -/
theorem pay3_eq (v27 : FVec Ideal S1024x512 .f32) (v28 : Vec Ideal S1x1x1024x64 .f32) (v31 : Vec Ideal S1x512x64 .f32)
    (v37 : Vec Ideal S1x1x1024x64 .f32) (v40 : Vec Ideal S1x512x64 .f32) (v46 : Vec Ideal S1x1x1024x64 .f32) (v49 : Vec Ideal S1x512x64 .f32) :
    k4_pay3 (F := Ideal) v27 v28 v31 v37 v40 v46 v49
      = addf (addf (addf v27 (headV v28 v31)) (headV v37 v40)) (headV v46 v49) := rfl

/-- One head's product of the head's slabs of the two blocks. -/
theorem head_ld (x0 : Vec Ideal S8x1x1024x64 .f32) (x1 : Vec Ideal S8x512x64 .f32) (o : ℕ) (ho : o < 8) (inb0) (inb1)
    (r : Fin 1024) (d : Fin 512) :
    headV (View.ld x0 (Rect.unit (s := S8x1x1024x64) ![o, 0, 0, 0] S1x1x1024x64.size inb0))
        (View.ld x1 (Rect.unit (s := S8x512x64) ![o, 0, 0] S1x512x64.size inb1)) (ix2 r d)
      = ∑ j : Fin 64, x0 (ix4 (⟨o, ho⟩ : Fin 8) (0 : Fin 1) r j) * x1 (ix3 (⟨o, ho⟩ : Fin 8) d j) :=
  (headV_apply _ _ r d).trans (Finset.sum_congr rfl fun j _ =>
    congrArg₂ (· * ·) (ld_slab4 x0 o ho inb0 r j) (ld_slab3 x1 o ho inb1 d j))

/-- The mean along the rows as the body takes it: the row sum, as a column, over 512. -/
def meanV (v : FVec Ideal S1024x512 .f32) : FVec Ideal S1024x1 .f32 :=
  divf (shapeCast S1024x1 (multiReduction .add [1] S1024 v 0x00000000#32 reduces_S1024x512_S1024 (.inl rfl) rfl)
    shapeCasts_S1024_S1024x1) (broadcast S1024x1 (Scalar.ofBits (F := Ideal) .f32 0x44000000#32))

/-- The rows less their means. -/
def cenV (v : FVec Ideal S1024x512 .f32) : FVec Ideal S1024x512 .f32 :=
  subf v (broadcastTo S1024x512 (meanV v) broadcasts_S1024x1_S1024x512)

/-- The normalised rows as the body computes them. -/
def lnV (v : FVec Ideal S1024x512 .f32) : FVec Ideal S1024x512 .f32 :=
  mulf (cenV v) (broadcastTo S1024x512 (rsqrt (addf (meanV (mulf (cenV v) (cenV v)))
    (broadcast S1024x1 (Scalar.ofBits (F := Ideal) .f32 0x3727C5AC#32)))) broadcasts_S1024x1_S1024x512)

/-- The last two heads, the bias and the residual, then the normalisation. -/
theorem pay6_eq (v54 : FVec Ideal S1024x512 .f32) (v57 : FVec Ideal S1024x64 .bf16) (v61 : FVec Ideal S64x512 .bf16)
    (v64 : Vec Ideal S1x1x1024x64 .f32) (v67 : Vec Ideal S1x512x64 .f32) (v73 : Vec Ideal S1x512 .f32) (v77 : Vec Ideal S1x1024x512 .f32) :
    k4_pay6 (F := Ideal) v54 v57 v61 v64 v67 v73 v77
      = lnV (addf (addf (addf (addf v54 (matmul dot_S1024x64_S64x512_S1024x512_1_0_0_1_n_n none v57 v61 (constant S1024x512 .f32 0x00000000#32)))
          (headV v64 v67))
          (broadcastTo S1024x512 (shapeCast S1x512 v73 shapeCasts_S1x512_S1x512) broadcasts_S1x512_S1024x512))
          (shapeCast S1024x512 v77 shapeCasts_S1x1024x512_S1024x512)) := rfl

/-- The seventh head's operands are prepared apart; its product is the same. -/
theorem head6_eq (v55 : Vec Ideal S1x1x1024x64 .f32) (v58 : Vec Ideal S1x512x64 .f32) :
    matmul dot_S1024x64_S64x512_S1024x512_1_0_0_1_n_n none (k4_pay4 (F := Ideal) v55) (k4_pay5 (F := Ideal) v58) (constant S1024x512 .f32 0x00000000#32)
      = headV v55 v58 := rfl

theorem meanV_apply (v : FVec Ideal S1024x512 .f32) (r : Fin 1024) (R : Fin 512 → EReal) (hR : ∀ d, v (ix2 r d) = R d) (u : Fin 1) :
    meanV v (ix2 r u) = Cert.Spec.meanRow R := by
  unfold meanV Cert.Spec.meanRow
  refine (divf_apply _ _ _).trans ?_
  refine congrArg₂ Ideal.div ?_ rfl
  refine (shapeCast_a_a1_apply _ _ r u).trans ?_
  refine (rowSum_apply v reduces_S1024x512_S1024 (.inl rfl) rfl r).trans ?_
  exact Finset.sum_congr rfl fun d _ => hR d

theorem cenV_apply (v : FVec Ideal S1024x512 .f32) (r : Fin 1024) (R : Fin 512 → EReal) (hR : ∀ d, v (ix2 r d) = R d) (d : Fin 512) :
    cenV v (ix2 r d) = R d - Cert.Spec.meanRow R := by
  unfold cenV
  refine (subf_apply _ _ _).trans ?_
  refine congrArg₂ (· - ·) (hR d) ?_
  refine (broadcastTo_a1_ab_apply _ _ r d).trans ?_
  exact meanV_apply v r R hR (0 : Fin 1)

theorem lnV_apply (v : FVec Ideal S1024x512 .f32) (r : Fin 1024) (R : Fin 512 → EReal) (hR : ∀ d, v (ix2 r d) = R d) (d : Fin 512) :
    lnV v (ix2 r d)
      = (R d - Cert.Spec.meanRow R) * Ideal.rsqrt (Cert.Spec.varRow R + Ideal.ofBits .f32 0x3727C5AC#32) := by
  unfold lnV
  refine (mulf_apply _ _ _).trans ?_
  refine congrArg₂ (· * ·) (cenV_apply v r R hR d) ?_
  refine (broadcastTo_a1_ab_apply _ _ r d).trans ?_
  change Ideal.rsqrt _ = Ideal.rsqrt _
  refine congrArg Ideal.rsqrt ?_
  refine (addf_apply _ _ _).trans ?_
  refine congrArg₂ (· + ·) ?_ rfl
  exact meanV_apply _ r (fun d' => (R d' - Cert.Spec.meanRow R) * (R d' - Cert.Spec.meanRow R))
    (fun d' => (mulf_apply _ _ _).trans (congrArg₂ (· * ·) (cenV_apply v r R hR d') (cenV_apply v r R hR d'))) (0 : Fin 1)

/-- The eight heads' products added in order from the zero matrix, at (r, d'). -/
theorem acc_apply (x0 : Vec Ideal S8x1x1024x64 .f32) (x1 : Vec Ideal S8x512x64 .f32) (r : Fin 1024) (d' : Fin 512) :
    addf (addf (k4_pay3 (F := Ideal) (k4_pay2 (F := Ideal) (View.ld x0 r4_0) (View.ld x1 r4_1) (View.ld x0 r4_2) (View.ld x1 r4_3) (View.ld x0 r4_4) (View.ld x1 r4_5))
          (View.ld x0 r4_6) (View.ld x1 r4_7) (View.ld x0 r4_8) (View.ld x1 r4_9) (View.ld x0 r4_10) (View.ld x1 r4_11))
        (matmul dot_S1024x64_S64x512_S1024x512_1_0_0_1_n_n none (k4_pay4 (F := Ideal) (View.ld x0 r4_12)) (k4_pay5 (F := Ideal) (View.ld x1 r4_13)) (constant S1024x512 .f32 0x00000000#32)))
      (headV (View.ld x0 r4_14) (View.ld x1 r4_15)) (ix2 r d')
      = ∑ h : Fin 8, ∑ j : Fin 64, x0 (ix4 h (0 : Fin 1) r j) * x1 (ix3 h d' j) := by
  rw [Fin.sum_univ_eight, pay3_eq, pay2_eq, head6_eq]
  refine (addf_apply _ _ _).trans ?_
  refine congrArg₂ (· + ·) ?_ (head_ld x0 x1 7 (by omega) _ _ r d')
  refine (addf_apply _ _ _).trans ?_
  refine congrArg₂ (· + ·) ?_ (head_ld x0 x1 6 (by omega) _ _ r d')
  refine (addf_apply _ _ _).trans ?_
  refine congrArg₂ (· + ·) ?_ (head_ld x0 x1 5 (by omega) _ _ r d')
  refine (addf_apply _ _ _).trans ?_
  refine congrArg₂ (· + ·) ?_ (head_ld x0 x1 4 (by omega) _ _ r d')
  refine (addf_apply _ _ _).trans ?_
  refine congrArg₂ (· + ·) ?_ (head_ld x0 x1 3 (by omega) _ _ r d')
  refine (addf_apply _ _ _).trans ?_
  refine congrArg₂ (· + ·) ?_ (head_ld x0 x1 2 (by omega) _ _ r d')
  refine (addf_apply _ _ _).trans ?_
  refine congrArg₂ (· + ·) ?_ (head_ld x0 x1 1 (by omega) _ _ r d')
  refine (addf_apply _ _ _).trans ?_
  show Ideal.ofBits .f32 0x00000000#32 + _ = _
  rw [Ideal.ofBits_zero_f32, zero_add]
  exact (head_ld x0 x1 0 (by omega) _ _ r d')

/-- The output-projection kernel's output block at (0, r, d). -/
theorem layer (x0 : Vec Ideal S8x1x1024x64 .f32) (x1 : Vec Ideal S8x512x64 .f32) (x2 : Vec Ideal S1x512 .f32)
    (x3 : Vec Ideal S1x1024x512 .f32) (x4 x5 : Vec Ideal S1x512 .f32) (r : Fin 1024) (d : Fin 512) :
    out4_6 (F := Ideal) x0 x1 x2 x3 x4 x5 (ix3 (0 : Fin 1) r d)
      = Cert.Spec.lnRow (fun d' => ((∑ h : Fin 8, ∑ j : Fin 64, x0 (ix4 h (0 : Fin 1) r j) * x1 (ix3 h d' j)) + x2 (ix2 (0 : Fin 1) d')) + x3 (ix3 (0 : Fin 1) r d'))
          (fun d' => x4 (ix2 (0 : Fin 1) d')) (fun d' => x5 (ix2 (0 : Fin 1) d')) d := by
  unfold out4_6
  rw [View.canon_unit_zero hz3'']
  simp only [View.ld_unit_zero (S := S1x512) hz2'', View.ld_unit_zero (S := S1x1024x512) hz3'']
  unfold k4_pay1 Cert.Spec.lnRow
  refine (shapeCast_ab_1ab_apply _ _ (0 : Fin 1) r d).trans ?_
  refine (addf_apply _ _ _).trans ?_
  refine congrArg₂ (· + ·) ?_ ?_
  · refine (mulf_apply _ _ _).trans ?_
    refine congrArg₂ (· * ·) ?_ ?_
    · rw [pay6_eq]
      refine lnV_apply _ r (fun d' => ((∑ h : Fin 8, ∑ j : Fin 64, x0 (ix4 h (0 : Fin 1) r j) * x1 (ix3 h d' j)) + x2 (ix2 (0 : Fin 1) d')) + x3 (ix3 (0 : Fin 1) r d')) (fun d' => ?_) d
      refine (addf_apply _ _ _).trans ?_
      refine congrArg₂ (· + ·) ?_ (shapeCast_1ab_ab_apply x3 _ r d')
      refine (addf_apply _ _ _).trans ?_
      refine congrArg₂ (· + ·) (acc_apply x0 x1 r d') ?_
      refine (broadcastTo_1b_ab_apply _ _ r d').trans ?_
      exact congrFun (shapeCast_self x2 _) _
    · unfold k4_pay7
      refine (broadcastTo_1b_ab_apply _ _ r d).trans ?_
      exact congrFun (shapeCast_self x4 _) _
  · refine (broadcastTo_1b_ab_apply _ _ r d).trans ?_
    exact congrFun (shapeCast_self x5 _) _

end Cert.KBody

end
-- ==== Proof.ArrLayer.lean ====
/-
  The last kernel: from blocks to the whole array.

  The grid is (batch b, half i of the sequence): 4 × 2 points.  At a point the kernel reads, for every
  head, the 1024 context rows of its half of batch b, the whole output weight split by head, the bias,
  the gain and the shift as single rows, and the 1024 residual rows; it writes the [1024, 512] block of
  normalised rows.  A row of the result depends only on its own context rows and residual row, so the
  result is one function of the six arrays, row by row, and the blocks tile it.
-/
import proofs.«123167_j8134668058670_2_alg».proof.Proof.Gen.KernelIdeal.Frame
import proofs.«123167_j8134668058670_2_alg».proof.Proof.Spec
import proofs.«123167_j8134668058670_2_alg».proof.Proof.BodyLayer
import proofs.«123167_j8134668058670_2_alg».proof.Proof.Arrays
import Idealize.ShloMosaic.Lib.Pipeline.Value
import Idealize.ShloMosaic.Lib.ValueIdx

set_option maxRecDepth 16384

noncomputable section

namespace Cert.KArr4

open Cert.KernelIdeal Cert.KernelIdeal.Gen Cert.Spec Cert.KArrays
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The normalised rows of the region's six input arrays as it finds them. -/
def GY (c : Dev nD) : S4x2048x512.Idx → EReal :=
  rowsArr (V c main_v7) (V c main_v9) (V c main_v10) (V c main_arg0) (V c main_v11) (V c main_v12)

/-- The block indices of the seven windows over the grid: batch and half of the sequence. -/
theorem idx_facts : ∀ t : Fin cfg4.N,
    win4_0.index t (0 : Fin 4) = 0 ∧ win4_0.index t (1 : Fin 4) = win4_6.index t (0 : Fin 3) ∧ win4_0.index t (2 : Fin 4) = win4_6.index t (1 : Fin 3) ∧ win4_0.index t (3 : Fin 4) = 0
    ∧ win4_1.index t (0 : Fin 3) = 0 ∧ win4_1.index t (1 : Fin 3) = 0 ∧ win4_1.index t (2 : Fin 3) = 0
    ∧ win4_2.index t (0 : Fin 2) = 0 ∧ win4_2.index t (1 : Fin 2) = 0
    ∧ win4_3.index t (0 : Fin 3) = win4_6.index t (0 : Fin 3) ∧ win4_3.index t (1 : Fin 3) = win4_6.index t (1 : Fin 3) ∧ win4_3.index t (2 : Fin 3) = 0
    ∧ win4_4.index t (0 : Fin 2) = 0 ∧ win4_4.index t (1 : Fin 2) = 0
    ∧ win4_5.index t (0 : Fin 2) = 0 ∧ win4_5.index t (1 : Fin 2) = 0
    ∧ win4_6.index t (2 : Fin 3) = 0 ∧ win4_6.index t (0 : Fin 3) < 4 ∧ win4_6.index t (1 : Fin 3) < 2 :=
  (by decide +kernel : ∀ t : Fin grid4.N, _)

/-- Every block of the result is some point's. -/
theorem idx_onto : ∀ (q0 : Fin 4) (q1 : Fin 2), ∃ t : Fin cfg4.N, win4_6.index t = ![q0.val, q1.val, 0] :=
  (by decide +kernel : ∀ (q0 : Fin 4) (q1 : Fin 2), ∃ t : Fin grid4.N, win4_6.index t = ![q0.val, q1.val, 0])

/-- A row computed from blocks is the arrays' row once the blocks' entries are the arrays'. -/
theorem row_gen (x0 : Vec Ideal S8x1x1024x64 .f32) (x1 : Vec Ideal S8x512x64 .f32) (x2 : Vec Ideal S1x512 .f32)
    (x3 : Vec Ideal S1x1024x512 .f32) (x4 x5 : Vec Ideal S1x512 .f32)
    (O : S8x4x2048x64.Idx → EReal) (Wf : S8x512x64.Idx → EReal) (Bf : S1x512.Idx → EReal) (R : S4x2048x512.Idx → EReal)
    (Gn Bt : S1x512.Idx → EReal) (r : Fin 1024) (bb : Fin 4) (s : Fin 2048) (d : Fin 512)
    (ho : ∀ (h : Fin 8) (j : Fin 64), x0 (ix4 h (0 : Fin 1) r j) = O (ix4 h bb s j))
    (hw : ∀ (h : Fin 8) (d' : Fin 512) (j : Fin 64), x1 (ix3 h d' j) = Wf (ix3 h d' j))
    (hb : ∀ d' : Fin 512, x2 (ix2 (0 : Fin 1) d') = Bf (ix2 (0 : Fin 1) d'))
    (hr : ∀ d' : Fin 512, x3 (ix3 (0 : Fin 1) r d') = R (ix3 bb s d'))
    (hg : ∀ d' : Fin 512, x4 (ix2 (0 : Fin 1) d') = Gn (ix2 (0 : Fin 1) d'))
    (hs : ∀ d' : Fin 512, x5 (ix2 (0 : Fin 1) d') = Bt (ix2 (0 : Fin 1) d')) :
    lnRow (fun d' => ((∑ h : Fin 8, ∑ j : Fin 64, x0 (ix4 h (0 : Fin 1) r j) * x1 (ix3 h d' j)) + x2 (ix2 (0 : Fin 1) d')) + x3 (ix3 (0 : Fin 1) r d'))
        (fun d' => x4 (ix2 (0 : Fin 1) d')) (fun d' => x5 (ix2 (0 : Fin 1) d')) d
      = lnRow (preRow O Wf Bf R bb s) (fun d' => Gn (ix2 (0 : Fin 1) d')) (fun d' => Bt (ix2 (0 : Fin 1) d')) d := by
  have hp : (fun d' : Fin 512 => ((∑ h : Fin 8, ∑ j : Fin 64, x0 (ix4 h (0 : Fin 1) r j) * x1 (ix3 h d' j)) + x2 (ix2 (0 : Fin 1) d')) + x3 (ix3 (0 : Fin 1) r d'))
      = preRow O Wf Bf R bb s := by
    funext d'
    unfold preRow
    rw [hb d', hr d']
    exact congrArg (· + _) (congrArg (· + _) (Finset.sum_congr rfl fun h _ => Finset.sum_congr rfl fun j _ => by rw [ho h j, hw h d' j]))
  rw [hp, funext hg, funext hs]

section blocks
variable (c : Dev nD) (t : Fin cfg4.N)

/-- A context row of the point's block is row (h, b, i·1024 + r) of the array. -/
theorem o_at (r : Fin 1024) (h : Fin 8) (j : Fin 64) (bb : Fin 4) (s : Fin 2048)
    (h0 : bb.val = win4_6.index t (0 : Fin 3)) (h1 : s.val = win4_6.index t (1 : Fin 3) * 1024 + r.val) :
    iblk4 V c 0 t (ix4 h (0 : Fin 1) r j) = (V c main_v7 : S8x4x2048x64.Idx → EReal) (ix4 h bb s j) := by
  obtain ⟨e0, e1, e2, e3, e4, e5, e6, e7, e8, e9, e10, e11, e12, e13, e14, e15, e16, e17, e18⟩ := idx_facts t
  show V c main_v7 (((cfg4.win 0).blk t).view.emb (ix4 h (0 : Fin 1) r j)) = _
  refine congrArg (V c main_v7) (funext fun a => Fin.ext ?_)
  match a with
  | ⟨0, _⟩ => show win4_0.index t (0 : Fin 4) * 8 + 1 * h.val = h.val; omega
  | ⟨1, _⟩ => show win4_0.index t (1 : Fin 4) * 1 + 1 * 0 = bb.val; omega
  | ⟨2, _⟩ => show win4_0.index t (2 : Fin 4) * 1024 + 1 * r.val = s.val; omega
  | ⟨3, _⟩ => show win4_0.index t (3 : Fin 4) * 64 + 1 * j.val = j.val; omega

theorem w_at (h : Fin 8) (d' : Fin 512) (j : Fin 64) :
    iblk4 V c 1 t (ix3 h d' j) = (V c main_v9 : S8x512x64.Idx → EReal) (ix3 h d' j) := by
  obtain ⟨e0, e1, e2, e3, e4, e5, e6, e7, e8, e9, e10, e11, e12, e13, e14, e15, e16, e17, e18⟩ := idx_facts t
  show V c main_v9 (((cfg4.win 1).blk t).view.emb (ix3 h d' j)) = _
  refine congrArg (V c main_v9) (funext fun a => Fin.ext ?_)
  match a with
  | ⟨0, _⟩ => show win4_1.index t (0 : Fin 3) * 8 + 1 * h.val = h.val; omega
  | ⟨1, _⟩ => show win4_1.index t (1 : Fin 3) * 512 + 1 * d'.val = d'.val; omega
  | ⟨2, _⟩ => show win4_1.index t (2 : Fin 3) * 64 + 1 * j.val = j.val; omega

theorem b_at (d' : Fin 512) : iblk4 V c 2 t (ix2 (0 : Fin 1) d') = (V c main_v10 : S1x512.Idx → EReal) (ix2 (0 : Fin 1) d') := by
  obtain ⟨e0, e1, e2, e3, e4, e5, e6, e7, e8, e9, e10, e11, e12, e13, e14, e15, e16, e17, e18⟩ := idx_facts t
  show V c main_v10 (((cfg4.win 2).blk t).view.emb (ix2 (0 : Fin 1) d')) = _
  refine congrArg (V c main_v10) (funext fun a => Fin.ext ?_)
  match a with
  | ⟨0, _⟩ => show win4_2.index t (0 : Fin 2) * 1 + 1 * 0 = 0; omega
  | ⟨1, _⟩ => show win4_2.index t (1 : Fin 2) * 512 + 1 * d'.val = d'.val; omega

theorem r_at (r : Fin 1024) (d' : Fin 512) (bb : Fin 4) (s : Fin 2048)
    (h0 : bb.val = win4_6.index t (0 : Fin 3)) (h1 : s.val = win4_6.index t (1 : Fin 3) * 1024 + r.val) :
    iblk4 V c 3 t (ix3 (0 : Fin 1) r d') = (V c main_arg0 : S4x2048x512.Idx → EReal) (ix3 bb s d') := by
  obtain ⟨e0, e1, e2, e3, e4, e5, e6, e7, e8, e9, e10, e11, e12, e13, e14, e15, e16, e17, e18⟩ := idx_facts t
  show V c main_arg0 (((cfg4.win 3).blk t).view.emb (ix3 (0 : Fin 1) r d')) = _
  refine congrArg (V c main_arg0) (funext fun a => Fin.ext ?_)
  match a with
  | ⟨0, _⟩ => show win4_3.index t (0 : Fin 3) * 1 + 1 * 0 = bb.val; omega
  | ⟨1, _⟩ => show win4_3.index t (1 : Fin 3) * 1024 + 1 * r.val = s.val; omega
  | ⟨2, _⟩ => show win4_3.index t (2 : Fin 3) * 512 + 1 * d'.val = d'.val; omega

theorem g_at (d' : Fin 512) : iblk4 V c 4 t (ix2 (0 : Fin 1) d') = (V c main_v11 : S1x512.Idx → EReal) (ix2 (0 : Fin 1) d') := by
  obtain ⟨e0, e1, e2, e3, e4, e5, e6, e7, e8, e9, e10, e11, e12, e13, e14, e15, e16, e17, e18⟩ := idx_facts t
  show V c main_v11 (((cfg4.win 4).blk t).view.emb (ix2 (0 : Fin 1) d')) = _
  refine congrArg (V c main_v11) (funext fun a => Fin.ext ?_)
  match a with
  | ⟨0, _⟩ => show win4_4.index t (0 : Fin 2) * 1 + 1 * 0 = 0; omega
  | ⟨1, _⟩ => show win4_4.index t (1 : Fin 2) * 512 + 1 * d'.val = d'.val; omega

theorem s_at (d' : Fin 512) : iblk4 V c 5 t (ix2 (0 : Fin 1) d') = (V c main_v12 : S1x512.Idx → EReal) (ix2 (0 : Fin 1) d') := by
  obtain ⟨e0, e1, e2, e3, e4, e5, e6, e7, e8, e9, e10, e11, e12, e13, e14, e15, e16, e17, e18⟩ := idx_facts t
  show V c main_v12 (((cfg4.win 5).blk t).view.emb (ix2 (0 : Fin 1) d')) = _
  refine congrArg (V c main_v12) (funext fun a => Fin.ext ?_)
  match a with
  | ⟨0, _⟩ => show win4_5.index t (0 : Fin 2) * 1 + 1 * 0 = 0; omega
  | ⟨1, _⟩ => show win4_5.index t (1 : Fin 2) * 512 + 1 * d'.val = d'.val; omega

end blocks

/-- What a point writes back is its block of `GY`. -/
theorem flushed_eq (c : Dev nD) (t : Fin cfg4.N) :
    (dat4 V c).flushed 6 t = ((cfg4.win 6).blk t).view.read (Elt Ideal) (GY V c) := by
  show (cfg4.win 6).cut (grid4.coords t) ((dat4 V c).after 6 t) = _
  rw [after4_6]
  funext y
  show out4_6 (iblk4 V c 0 t) (iblk4 V c 1 t) (iblk4 V c 2 t) (iblk4 V c 3 t) (iblk4 V c 4 t) (iblk4 V c 5 t) y = GY V c (((cfg4.win 6).blk t).view.emb y)
  obtain ⟨a, r, d, rfl⟩ : ∃ (a : Fin 1) (r : Fin 1024) (d : Fin 512), y = ix3 a r d := ⟨y 0, y 1, y 2, eq_ix3 y⟩
  obtain rfl : a = 0 := Subsingleton.elim _ _
  refine (Cert.KBody.layer _ _ _ _ _ _ r d).trans ?_
  obtain ⟨e0, e1, e2, e3, e4, e5, e6, e7, e8, e9, e10, e11, e12, e13, e14, e15, e16, e17, e18⟩ := idx_facts t
  unfold GY rowsArr
  have h0 : ((((cfg4.win 6).blk t).view.emb (ix3 (0 : Fin 1) r d)) 0).val = win4_6.index t (0 : Fin 3) := by
    show win4_6.index t (0 : Fin 3) * 1 + 1 * 0 = _; omega
  have h1 : ((((cfg4.win 6).blk t).view.emb (ix3 (0 : Fin 1) r d)) 1).val = win4_6.index t (1 : Fin 3) * 1024 + r.val := by
    show win4_6.index t (1 : Fin 3) * 1024 + 1 * r.val = _; omega
  have h2 : ((((cfg4.win 6).blk t).view.emb (ix3 (0 : Fin 1) r d)) 2) = d := Fin.ext (by
    show win4_6.index t (2 : Fin 3) * 512 + 1 * d.val = _; omega)
  refine (row_gen (iblk4 V c 0 t) (iblk4 V c 1 t) (iblk4 V c 2 t) (iblk4 V c 3 t) (iblk4 V c 4 t) (iblk4 V c 5 t)
    (V c main_v7) (V c main_v9) (V c main_v10) (V c main_arg0) (V c main_v11) (V c main_v12) r _ _ d
    (fun h j => o_at V c t r h j _ _ h0 h1) (fun h d' j => w_at V c t h d' j) (fun d' => b_at V c t d')
    (fun d' => r_at V c t r d' _ _ h0 h1) (fun d' => g_at V c t d') (fun d' => s_at V c t d')).trans ?_
  rw [h2]

theorem mem_blk (t : Fin cfg4.N) (i : S4x2048x512.Idx) :
    i ∈ ((cfg4.win 6).blk t).view.set ↔ ∀ a : Fin 3, win4_6.index t a * S1x1024x512.size a ≤ (i a).val ∧ (i a).val < win4_6.index t a * S1x1024x512.size a + S1x1024x512.size a := by
  show i ∈ ((View.whole main_v13).slice (win4_6.rect t)).set ↔ _
  rw [View.set_slice_whole, Rect.mem_set_unit]
  exact Iff.rfl

/-- The blocks tile the result. -/
theorem cover (i : S4x2048x512.Idx) : ∃ t : Fin cfg4.N, (cfg4.win 6).flush t = true ∧ i ∈ ((cfg4.win 6).blk t).view.set := by
  have hi0 : (i 0).val < 4 := (i 0).isLt
  have hi1 : (i 1).val < 2048 := (i 1).isLt
  have hi2 : (i 2).val < 512 := (i 2).isLt
  obtain ⟨t, ht⟩ := idx_onto ⟨(i 0).val, hi0⟩ ⟨(i 1).val / 1024, by omega⟩
  have q0 : win4_6.index t (0 : Fin 3) = (i 0).val := congrFun ht 0
  have q1 : win4_6.index t (1 : Fin 3) = (i 1).val / 1024 := congrFun ht 1
  have q2 : win4_6.index t (2 : Fin 3) = 0 := congrFun ht 2
  refine ⟨t, flush4_6 t, ?_⟩
  rw [mem_blk]
  intro a
  match a with
  | ⟨0, _⟩ => show win4_6.index t (0 : Fin 3) * 1 ≤ (i 0).val ∧ (i 0).val < win4_6.index t (0 : Fin 3) * 1 + 1; omega
  | ⟨1, _⟩ => show win4_6.index t (1 : Fin 3) * 1024 ≤ (i 1).val ∧ (i 1).val < win4_6.index t (1 : Fin 3) * 1024 + 1024; omega
  | ⟨2, _⟩ => show win4_6.index t (2 : Fin 3) * 512 ≤ (i 2).val ∧ (i 2).val < win4_6.index t (2 : Fin 3) * 512 + 512; omega

/-- The layer's result after the region. -/
theorem final (c : Dev nD) : (dat4 V c).arrAt 6 cfg4.N = GY V c :=
  (dat4 V c).arrAt_eq_of_cover 6 (GY V c) (fun t _ => flushed_eq V c t) (cover)

end Cert.KArr4

end
-- ==== Proof.KernelValue.lean ====
/-
  The idealized kernel's two results as the layer's mathematics of the launch arguments.

  Region by region: each projection region leaves the head projection of its input, weight and bias,
  head-major; the attention region, reading the three projections, leaves the probabilities and the
  contexts; the last region, reading the contexts regrouped by head, the output weight split by head,
  the three row vectors and the residual, leaves the normalised rows.  Composed, the two results are
  the specification's functions of the thirteen arguments.
-/
import proofs.«123167_j8134668058670_2_alg».proof.Proof.KernelRun
import proofs.«123167_j8134668058670_2_alg».proof.Proof.Entry
import proofs.«123167_j8134668058670_2_alg».proof.Proof.Arrays
import proofs.«123167_j8134668058670_2_alg».proof.Proof.ArrProj0
import proofs.«123167_j8134668058670_2_alg».proof.Proof.ArrProj1
import proofs.«123167_j8134668058670_2_alg».proof.Proof.ArrProj2
import proofs.«123167_j8134668058670_2_alg».proof.Proof.ArrAttn
import proofs.«123167_j8134668058670_2_alg».proof.Proof.ArrLayer

set_option maxRecDepth 16384

noncomputable section

namespace Cert.KValue

open Cert.KernelIdeal Cert.KernelIdeal.Gen Cert.Spec Cert.KArrays Cert.KEntry
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The query projection, head-major. -/
theorem qh (c : Dev nD) : (dat0 (V1 m ρ) c).arrAt 3 cfg0.N = flat (proj (m ((c : Thread nD τ).loc main_arg0)) (m ((c : Thread nD τ).loc main_arg3)) (m ((c : Thread nD τ).loc main_arg4))) := by
  rw [Cert.KArr0.final]
  unfold Cert.KArr0.G
  rw [e0_x m ρ c, e0_w m ρ c, e0_b m ρ c]
  exact projArr_eq _ _ _

/-- The key projection, head-major. -/
theorem kh (c : Dev nD) : (dat1 (V3 m ρ) c).arrAt 3 cfg1.N = flat (proj (m ((c : Thread nD τ).loc main_arg1)) (m ((c : Thread nD τ).loc main_arg5)) (m ((c : Thread nD τ).loc main_arg6))) := by
  rw [Cert.KArr1.final]
  unfold Cert.KArr1.G
  rw [e1_x m ρ c, e1_w m ρ c, e1_b m ρ c]
  exact projArr_eq _ _ _

/-- The value projection, head-major. -/
theorem vh (c : Dev nD) : (dat2 (V5 m ρ) c).arrAt 3 cfg2.N = flat (proj (m ((c : Thread nD τ).loc main_arg2)) (m ((c : Thread nD τ).loc main_arg7)) (m ((c : Thread nD τ).loc main_arg8))) := by
  rw [Cert.KArr2.final]
  unfold Cert.KArr2.G
  rw [e2_x m ρ c, e2_w m ρ c, e2_b m ρ c]
  exact projArr_eq _ _ _

/-- The probabilities the attention region leaves. -/
theorem attn_val (c : Dev nD) : (dat3 (V6 m ρ) c).arrAt 4 cfg3.N = attnOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [Cert.KArr3.finalP]
  unfold Cert.KArr3.GP
  rw [e3_q m ρ c, e3_k m ρ c, qh m ρ c, kh m ρ c]
  exact probArr_eq _ _

/-- The contexts the attention region leaves, head-major. -/
theorem ctx_val (c : Dev nD) : (dat3 (V6 m ρ) c).arrAt 3 cfg3.N
    = flat (ctx (prob (proj (m ((c : Thread nD τ).loc main_arg0)) (m ((c : Thread nD τ).loc main_arg3)) (m ((c : Thread nD τ).loc main_arg4))) (proj (m ((c : Thread nD τ).loc main_arg1)) (m ((c : Thread nD τ).loc main_arg5)) (m ((c : Thread nD τ).loc main_arg6)))) (proj (m ((c : Thread nD τ).loc main_arg2)) (m ((c : Thread nD τ).loc main_arg7)) (m ((c : Thread nD τ).loc main_arg8)))) := by
  rw [Cert.KArr3.finalO]
  unfold Cert.KArr3.GO
  rw [e3_q m ρ c, e3_k m ρ c, e3_v m ρ c, qh m ρ c, kh m ρ c, vh m ρ c]
  exact ctxArr_eq _ _ _

/-- The normalised rows the last region leaves. -/
theorem layer_val (c : Dev nD) : (dat4 (V8 m ρ) c).arrAt 6 cfg4.N = layerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Cert.KArr4.final]
  unfold Cert.KArr4.GY
  rw [e4_o m ρ c, e4_w m ρ c, e4_b m ρ c, e4_r m ρ c, e4_g m ρ c, e4_s m ρ c, ctx_val m ρ c]
  exact rowsArr_eq _ _ _ _ _ _

/-- The run with both results at the specification's functions of the arguments, the arguments as launched. -/
theorem run : θ_run defs (onTc (τ := τ) (main (F := Ideal))) ⟨m, fun _ => 0, ρ⟩ (fun r => ∀ c : Dev nD,
      r.2.mem ((c.tc : Thread nD τ).loc main_v13) = layerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_v6_1) = attnOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans ((out_layer m ρ c).trans (layer_val m ρ c)),
      (h c).2.1.trans ((out_attn m ρ c).trans (attn_val m ρ c)), (h c).2.2⟩)
    (Cert.KernelIdeal.RunOut.run_out m ρ)

end Cert.KValue

end
-- ==== Proof.RefProj.lean ====
/-
  The reference program read stage by stage against the mathematics of Spec.
-/
import proofs.«123167_j8134668058670_2_alg».proof.Proof.Spec
import proofs.«123167_j8134668058670_2_alg».proof.Proof.Gen.ReferenceIdeal.Read

noncomputable section

namespace Cert.RefSide

open Idealize.ShloMosaic Idealize.ShloMosaic.ValueIdx Cert.ReferenceIdeal.Read Cert.ReferenceIdeal.Gen

/-- Head h, batch b, position s, head-feature j of the reshaped and transposed [8,4,2048,64] array is
    position (b, s, h·64 + j) of the [4,2048,512] array. -/
theorem idx45 (h : Fin 8) (bb : Fin 4) (s : Fin 2048) (j : Fin 64) :
    idx_main_v4 (idx_main_v5 (ix4 h bb s j)) = ix3 bb s (Cert.Spec.feat h j) := by
  funext a
  apply Fin.ext
  have hh := h.isLt; have hb := bb.isLt; have hs := s.isLt; have hj := j.isLt
  match a with
  | ⟨0, _⟩ => show ((((bb.val * 2048 + s.val) * 8 + h.val) * 64 + j.val) / 1048576) = bb.val; omega
  | ⟨1, _⟩ => show ((((bb.val * 2048 + s.val) * 8 + h.val) * 64 + j.val) / 512 % 2048) = s.val; omega
  | ⟨2, _⟩ => show ((((bb.val * 2048 + s.val) * 8 + h.val) * 64 + j.val) % 512) = h.val * 64 + j.val; omega

theorem lidx0 (bb : Fin 4) (s : Fin 2048) (f k : Fin 512) : lidx_main_v0 (ix3 bb s f) k = ix3 bb s k := by
  funext a
  match a with
  | ⟨0, _⟩ => rfl
  | ⟨1, _⟩ => rfl
  | ⟨2, _⟩ => rfl

theorem ridx0 (bb : Fin 4) (s : Fin 2048) (f k : Fin 512) : ridx_main_v0 (ix3 bb s f) k = ix2 f k := by
  funext a
  match a with
  | ⟨0, _⟩ => rfl
  | ⟨1, _⟩ => rfl

theorem idx12 (bb : Fin 4) (s : Fin 2048) (f : Fin 512) : idx_main_v1 (idx_main_v2 (ix3 bb s f)) = ix1 f := by
  funext a
  match a with
  | ⟨0, _⟩ => rfl

/-- The first head projection of the reference, read at a coordinate. -/
theorem proj_eq (x : Cert.Spec.Act) (w : Cert.Spec.Wgt) (b : Cert.Spec.Vec1) (h : Fin 8) (bb : Fin 4) (s : Fin 2048) (j : Fin 64) :
    val_main_v5 (F := Ideal) x w b (ix4 h bb s j) = Cert.Spec.proj x w b h bb s j := by
  rw [val_main_v5_apply, val_main_v4_apply, val_main_v3_apply, val_main_v0_apply, val_main_v2_apply, val_main_v1_apply,
    idx45, idx12]
  simp only [lidx0, ridx0]
  rfl

theorem v11_eq_v5 : @val_main_v11 Ideal _ = @val_main_v5 Ideal _ := rfl
theorem v17_eq_v5 : @val_main_v17 Ideal _ = @val_main_v5 Ideal _ := rfl

end Cert.RefSide

end
-- ==== Proof.RefAttn.lean ====
/-
  The reference program read stage by stage against the mathematics of Spec.
-/
import proofs.«123167_j8134668058670_2_alg».proof.Proof.RefProj

noncomputable section

namespace Cert.RefSide

open Cert.ReferenceIdeal Idealize.ShloMosaic Idealize.ShloMosaic.ValueIdx Cert.ReferenceIdeal.Read Cert.ReferenceIdeal.Gen

/-- The literal 8.0 denotes the real 8, the literal 0.125 the real 1/8. -/
theorem ofBits_eight : Ideal.ofBits .f32 0x41000000#32 = ((8 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- The quotient by 8 is the product with 1/8. -/
theorem div_eight (x : EReal) :
    Ideal.div x (Ideal.ofBits .f32 0x41000000#32) = x * Ideal.ofBits .f32 0x3E000000#32 := by
  rw [ofBits_eight, ofBits_eighth]
  exact Ideal.div_coe (by norm_num) x

/-- The positive zero denotes 0. -/
theorem ofBits_zero : Ideal.ofBits .f32 0x00000000#32 = 0 := by
  simp [Ideal.ofBits, Ideal.ieee]

theorem lidx18 (h : Fin 8) (bb : Fin 4) (q k : Fin 2048) (j : Fin 64) :
    lidx_main_v18 (ix4 h bb q k) j = ix4 h bb q j := by
  funext a
  match a with
  | ⟨0, _⟩ => rfl
  | ⟨1, _⟩ => rfl
  | ⟨2, _⟩ => rfl
  | ⟨3, _⟩ => rfl

theorem ridx18 (h : Fin 8) (bb : Fin 4) (q k : Fin 2048) (j : Fin 64) :
    ridx_main_v18 (ix4 h bb q k) j = ix4 h bb k j := by
  funext a
  match a with
  | ⟨0, _⟩ => rfl
  | ⟨1, _⟩ => rfl
  | ⟨2, _⟩ => rfl
  | ⟨3, _⟩ => rfl

/-- The scaled scores of the reference. -/
theorem score_eq (x0 x1 : Cert.Spec.Act) (x3 : Cert.Spec.Wgt) (x4 : Cert.Spec.Vec1) (x5 : Cert.Spec.Wgt) (x6 : Cert.Spec.Vec1)
    (h : Fin 8) (bb : Fin 4) (q k : Fin 2048) :
    val_main_v20 (F := Ideal) x0 x1 x3 x4 x5 x6 (ix4 h bb q k)
      = Cert.Spec.score (Cert.Spec.proj x0 x3 x4) (Cert.Spec.proj x1 x5 x6) h bb q k := by
  rw [val_main_v20_apply, val_main_v18_apply, val_main_v19_apply, val_main_cst_apply, v11_eq_v5]
  simp only [lidx18, ridx18, proj_eq]
  exact div_eight _

/-- Row (h, b, q) of the scores with the key coordinate k put back is (h, b, q, k). -/
theorem lift21 (hR : S8x4x2048x2048.Reduces [3] S8x4x2048) (h : Fin 8) (bb : Fin 4) (q : Fin 2048)
    (k : Fin (S8x4x2048x2048.size 3)) :
    hR.lift (ix3 h bb q) k = ix4 h bb q (⟨k.val, k.isLt⟩ : Fin 2048) := by
  funext c; apply Fin.ext
  fin_cases c <;> rfl

/-- A maximum against the fold's own starting value changes nothing. -/
theorem max_fold_self (a : EReal) (f : Fin 2048 → EReal) :
    max a ((Finset.univ : Finset (Fin 2048)).fold max a f) = (Finset.univ : Finset (Fin 2048)).fold max a f :=
  max_eq_right (Finset.le_fold_max a |>.mpr (Or.inl le_rfl))

/-- The row maximum of the reference: the maximum with minus infinity of the fold from minus infinity. -/
theorem rowmax_eq (x0 x1 : Cert.Spec.Act) (x3 : Cert.Spec.Wgt) (x4 : Cert.Spec.Vec1) (x5 : Cert.Spec.Wgt) (x6 : Cert.Spec.Vec1)
    (h : Fin 8) (bb : Fin 4) (q : Fin 2048) :
    val_main_v23 (F := Ideal) x0 x1 x3 x4 x5 x6 (ix3 h bb q)
      = Cert.Spec.rowMax (Cert.Spec.score (Cert.Spec.proj x0 x3 x4) (Cert.Spec.proj x1 x5 x6) h bb q) := by
  rw [val_main_v23_apply, val_main_v22_apply, val_main_cst_1_apply]
  unfold val_main_v21
  have hR : S8x4x2048x2048.Reduces [3] S8x4x2048 := by decide
  rw [Host.reduce_eq_fold_single FloatOps.maximumf _ _ reducesTo_S8x4x2048x2048_S8x4x2048_d3 hR h_S_]
  have hf : (val_main_v20 (F := Ideal) x0 x1 x3 x4 x5 x6 ∘ hR.lift (ix3 h bb q))
      = Cert.Spec.score (Cert.Spec.proj x0 x3 x4) (Cert.Spec.proj x1 x5 x6) h bb q :=
    funext fun k => by
      show val_main_v20 (F := Ideal) x0 x1 x3 x4 x5 x6 (hR.lift (ix3 h bb q) k) = _
      rw [lift21, score_eq]
      rfl
  rw [hf]
  exact max_fold_self _ _

theorem idx2425 (h : Fin 8) (bb : Fin 4) (q k : Fin 2048) :
    idx_main_v24 (idx_main_v25 (ix4 h bb q k)) = ix3 h bb q := by
  funext a
  match a with
  | ⟨0, _⟩ => rfl
  | ⟨1, _⟩ => rfl
  | ⟨2, _⟩ => rfl

/-- The exponentials of the reference. -/
theorem exp_eq (x0 x1 : Cert.Spec.Act) (x3 : Cert.Spec.Wgt) (x4 : Cert.Spec.Vec1) (x5 : Cert.Spec.Wgt) (x6 : Cert.Spec.Vec1)
    (h : Fin 8) (bb : Fin 4) (q k : Fin 2048) :
    val_main_v27 (F := Ideal) x0 x1 x3 x4 x5 x6 (ix4 h bb q k)
      = Cert.Spec.expRow (Cert.Spec.score (Cert.Spec.proj x0 x3 x4) (Cert.Spec.proj x1 x5 x6) h bb q) k := by
  rw [val_main_v27_apply, val_main_v26_apply, val_main_v25_apply, val_main_v24_apply, idx2425, rowmax_eq, score_eq]
  rfl

theorem idx28 (h : Fin 8) (bb : Fin 4) (q k : Fin 2048) : idx_main_v28 (ix3 h bb q) k = ix4 h bb q k := by
  funext a
  match a with
  | ⟨0, _⟩ => rfl
  | ⟨1, _⟩ => rfl
  | ⟨2, _⟩ => rfl
  | ⟨3, _⟩ => rfl

/-- The row sums of the exponentials, from zero. -/
theorem sum_eq (x0 x1 : Cert.Spec.Act) (x3 : Cert.Spec.Wgt) (x4 : Cert.Spec.Vec1) (x5 : Cert.Spec.Wgt) (x6 : Cert.Spec.Vec1)
    (h : Fin 8) (bb : Fin 4) (q : Fin 2048) :
    val_main_v28 (F := Ideal) x0 x1 x3 x4 x5 x6 (ix3 h bb q)
      = ∑ k' : Fin 2048, Cert.Spec.expRow (Cert.Spec.score (Cert.Spec.proj x0 x3 x4) (Cert.Spec.proj x1 x5 x6) h bb q) k' := by
  rw [val_main_v28_apply, val_main_cst_2_apply]
  simp only [idx28, exp_eq]
  show Ideal.ofBits .f32 0x00000000#32 + _ = _
  rw [ofBits_zero, zero_add]

theorem idx2930 (h : Fin 8) (bb : Fin 4) (q k : Fin 2048) :
    idx_main_v29 (idx_main_v30 (ix4 h bb q k)) = ix3 h bb q := by
  funext a
  match a with
  | ⟨0, _⟩ => rfl
  | ⟨1, _⟩ => rfl
  | ⟨2, _⟩ => rfl

/-- The probabilities of the reference. -/
theorem prob_eq (x0 x1 : Cert.Spec.Act) (x3 : Cert.Spec.Wgt) (x4 : Cert.Spec.Vec1) (x5 : Cert.Spec.Wgt) (x6 : Cert.Spec.Vec1)
    (h : Fin 8) (bb : Fin 4) (q k : Fin 2048) :
    val_main_v31 (F := Ideal) x0 x1 x3 x4 x5 x6 (ix4 h bb q k)
      = Cert.Spec.prob (Cert.Spec.proj x0 x3 x4) (Cert.Spec.proj x1 x5 x6) h bb q k := by
  rw [val_main_v31_apply, val_main_v30_apply, val_main_v29_apply, idx2930, sum_eq, exp_eq]
  rfl

/-- Row hb of the [32, 2048, 2048] result is head hb / 4, batch hb % 4 of the [8, 4, 2048, 2048] array. -/
theorem idx64 (a : Fin 32) (b c : Fin 2048) :
    idx_main_v64 (ix3 a b c) = ix4 (Cert.Spec.headOf a) (Cert.Spec.batchOf a) b c := by
  funext d
  apply Fin.ext
  have ha := a.isLt; have hb := b.isLt; have hc := c.isLt
  match d with
  | ⟨0, _⟩ => show ((a.val * 2048 + b.val) * 2048 + c.val) / 16777216 = a.val / 4; omega
  | ⟨1, _⟩ => show ((a.val * 2048 + b.val) * 2048 + c.val) / 4194304 % 4 = a.val % 4; omega
  | ⟨2, _⟩ => show ((a.val * 2048 + b.val) * 2048 + c.val) / 2048 % 2048 = b.val; omega
  | ⟨3, _⟩ => show ((a.val * 2048 + b.val) * 2048 + c.val) % 2048 = c.val; omega

/-- The reference's second result is the probabilities of the whole layer. -/
theorem attn_eq (x0 x1 : Cert.Spec.Act) (x3 : Cert.Spec.Wgt) (x4 : Cert.Spec.Vec1) (x5 : Cert.Spec.Wgt) (x6 : Cert.Spec.Vec1) :
    val_main_v64 (F := Ideal) x0 x1 x3 x4 x5 x6 = Cert.Spec.attnOut x0 x1 x3 x4 x5 x6 := by
  funext i
  obtain ⟨a, b, c, rfl⟩ : ∃ (a : Fin 32) (b c : Fin 2048), i = ix3 a b c := ⟨i 0, i 1, i 2, eq_ix3 i⟩
  rw [val_main_v64_apply, idx64, prob_eq]
  rfl

end Cert.RefSide

end
-- ==== Proof.RefCtx.lean ====
/-
  The reference program read stage by stage against the mathematics of Spec.
-/
import proofs.«123167_j8134668058670_2_alg».proof.Proof.RefAttn

noncomputable section

namespace Cert.RefSide

open Cert.ReferenceIdeal Idealize.ShloMosaic Idealize.ShloMosaic.ValueIdx Cert.ReferenceIdeal.Read Cert.ReferenceIdeal.Gen

theorem lidx32 (h : Fin 8) (bb : Fin 4) (q : Fin 2048) (j : Fin 64) (k : Fin 2048) :
    lidx_main_v32 (ix4 h bb q j) k = ix4 h bb q k := by
  funext a
  match a with
  | ⟨0, _⟩ => rfl
  | ⟨1, _⟩ => rfl
  | ⟨2, _⟩ => rfl
  | ⟨3, _⟩ => rfl

theorem ridx32 (h : Fin 8) (bb : Fin 4) (q : Fin 2048) (j : Fin 64) (k : Fin 2048) :
    ridx_main_v32 (ix4 h bb q j) k = ix4 h bb k j := by
  funext a
  match a with
  | ⟨0, _⟩ => rfl
  | ⟨1, _⟩ => rfl
  | ⟨2, _⟩ => rfl
  | ⟨3, _⟩ => rfl

/-- The context of the reference: the probabilities against the values. -/
theorem ctx_eq (x0 x1 x2 : Cert.Spec.Act) (x3 : Cert.Spec.Wgt) (x4 : Cert.Spec.Vec1) (x5 : Cert.Spec.Wgt) (x6 : Cert.Spec.Vec1)
    (x7 : Cert.Spec.Wgt) (x8 : Cert.Spec.Vec1) (h : Fin 8) (bb : Fin 4) (q : Fin 2048) (j : Fin 64) :
    val_main_v32 (F := Ideal) x0 x1 x2 x3 x4 x5 x6 x7 x8 (ix4 h bb q j)
      = Cert.Spec.ctx (Cert.Spec.prob (Cert.Spec.proj x0 x3 x4) (Cert.Spec.proj x1 x5 x6)) (Cert.Spec.proj x2 x7 x8) h bb q j := by
  rw [val_main_v32_apply, v17_eq_v5]
  simp only [lidx32, ridx32, prob_eq, proj_eq]
  rfl

/-- Feature h·64 + j of the [4, 2048, 512] context is head h, head-feature j of the [8, 4, 2048, 64] one. -/
theorem idx3334 (h : Fin 8) (bb : Fin 4) (s : Fin 2048) (j : Fin 64) :
    idx_main_v33 (idx_main_v34 (ix3 bb s (Cert.Spec.feat h j))) = ix4 h bb s j := by
  funext a
  apply Fin.ext
  have hh := h.isLt; have hb := bb.isLt; have hs := s.isLt; have hj := j.isLt
  match a with
  | ⟨0, _⟩ => show ((bb.val * 2048 + s.val) * 512 + (h.val * 64 + j.val)) / 64 % 8 = h.val; omega
  | ⟨1, _⟩ => show ((bb.val * 2048 + s.val) * 512 + (h.val * 64 + j.val)) / 1048576 = bb.val; omega
  | ⟨2, _⟩ => show ((bb.val * 2048 + s.val) * 512 + (h.val * 64 + j.val)) / 512 % 2048 = s.val; omega
  | ⟨3, _⟩ => show ((bb.val * 2048 + s.val) * 512 + (h.val * 64 + j.val)) % 64 = j.val; omega

/-- A sum over the 512 model features is the double sum over heads and head-features. -/
theorem sum_feat (g : Fin 512 → EReal) :
    ∑ f : Fin 512, g f = ∑ h : Fin 8, ∑ j : Fin 64, g (Cert.Spec.feat h j) := by
  have e := Equiv.sum_comp (finProdFinEquiv : Fin 8 × Fin 64 ≃ Fin (8 * 64)) g
  rw [Fintype.sum_prod_type] at e
  refine e.symm.trans ?_
  refine Finset.sum_congr rfl fun h _ => Finset.sum_congr rfl fun j _ => congrArg g (Fin.ext ?_)
  show j.val + 64 * h.val = h.val * 64 + j.val
  omega

theorem lidx35 (bb : Fin 4) (s : Fin 2048) (d k : Fin 512) : lidx_main_v35 (ix3 bb s d) k = ix3 bb s k := by
  funext a
  match a with
  | ⟨0, _⟩ => rfl
  | ⟨1, _⟩ => rfl
  | ⟨2, _⟩ => rfl

theorem ridx35 (bb : Fin 4) (s : Fin 2048) (d k : Fin 512) : ridx_main_v35 (ix3 bb s d) k = ix2 d k := by
  funext a
  match a with
  | ⟨0, _⟩ => rfl
  | ⟨1, _⟩ => rfl

theorem idx3637 (bb : Fin 4) (s : Fin 2048) (d : Fin 512) : idx_main_v36 (idx_main_v37 (ix3 bb s d)) = ix1 d := by
  funext a
  match a with
  | ⟨0, _⟩ => rfl

/-- The context in its [4, 2048, 512] layout, at feature h·64 + j. -/
theorem v34_eq (x0 x1 x2 : Cert.Spec.Act) (x3 : Cert.Spec.Wgt) (x4 : Cert.Spec.Vec1) (x5 : Cert.Spec.Wgt) (x6 : Cert.Spec.Vec1)
    (x7 : Cert.Spec.Wgt) (x8 : Cert.Spec.Vec1) (h : Fin 8) (bb : Fin 4) (s : Fin 2048) (j : Fin 64) :
    val_main_v34 (F := Ideal) x0 x1 x2 x3 x4 x5 x6 x7 x8 (ix3 bb s (Cert.Spec.feat h j))
      = Cert.Spec.ctx (Cert.Spec.prob (Cert.Spec.proj x0 x3 x4) (Cert.Spec.proj x1 x5 x6)) (Cert.Spec.proj x2 x7 x8) h bb s j := by
  rw [val_main_v34_apply, val_main_v33_apply, idx3334, ctx_eq]

/-- The output projection, its bias and the residual. -/
theorem resid_eq (x0 x1 x2 : Cert.Spec.Act) (x3 : Cert.Spec.Wgt) (x4 : Cert.Spec.Vec1) (x5 : Cert.Spec.Wgt) (x6 : Cert.Spec.Vec1)
    (x7 : Cert.Spec.Wgt) (x8 : Cert.Spec.Vec1) (x9 : Cert.Spec.Wgt) (x10 : Cert.Spec.Vec1) (bb : Fin 4) (s : Fin 2048) (d : Fin 512) :
    val_main_v39 (F := Ideal) x0 x1 x2 x3 x4 x5 x6 x7 x8 x9 x10 (ix3 bb s d)
      = Cert.Spec.resid (Cert.Spec.ctx (Cert.Spec.prob (Cert.Spec.proj x0 x3 x4) (Cert.Spec.proj x1 x5 x6)) (Cert.Spec.proj x2 x7 x8))
          x9 x10 x0 bb s d := by
  rw [val_main_v39_apply, val_main_v38_apply, val_main_v35_apply, val_main_v37_apply, val_main_v36_apply, idx3637]
  simp only [lidx35, ridx35]
  rw [sum_feat]
  simp only [v34_eq]
  rfl

end Cert.RefSide

end
-- ==== Proof.RefLayer.lean ====
/-
  The reference program read stage by stage against the mathematics of Spec.
-/
import proofs.«123167_j8134668058670_2_alg».proof.Proof.RefCtx

noncomputable section

namespace Cert.RefSide

open Cert.ReferenceIdeal Idealize.ShloMosaic Idealize.ShloMosaic.ValueIdx Cert.ReferenceIdeal.Read Cert.ReferenceIdeal.Gen

section LayerNorm

variable (x0 x1 x2 : Cert.Spec.Act) (x3 : Cert.Spec.Wgt) (x4 : Cert.Spec.Vec1) (x5 : Cert.Spec.Wgt) (x6 : Cert.Spec.Vec1)
  (x7 : Cert.Spec.Wgt) (x8 : Cert.Spec.Vec1) (x9 : Cert.Spec.Wgt) (x10 x11 x12 : Cert.Spec.Vec1)

/-- The rows the layer norm normalises: the output projection with its bias and the residual. -/
local notation "R" =>
  Cert.Spec.resid (Cert.Spec.ctx (Cert.Spec.prob (Cert.Spec.proj x0 x3 x4) (Cert.Spec.proj x1 x5 x6)) (Cert.Spec.proj x2 x7 x8)) x9 x10 x0

theorem idx4041 (bb : Fin 4) (s : Fin 2048) (z : Fin 1) (k : Fin 512) :
    idx_main_v40 (idx_main_v41 (ix3 bb s z)) k = ix3 bb s k := by
  funext a
  match a with
  | ⟨0, _⟩ => rfl
  | ⟨1, _⟩ => rfl
  | ⟨2, _⟩ => rfl

theorem idx44 (bb : Fin 4) (s : Fin 2048) (d : Fin 512) :
    idx_main_v44 (ix3 bb s d) = ix3 bb s (⟨0, Nat.one_pos⟩ : Fin 1) := by
  funext a
  match a with
  | ⟨0, _⟩ => rfl
  | ⟨1, _⟩ => rfl
  | ⟨2, _⟩ => rfl

theorem idx51 (bb : Fin 4) (s : Fin 2048) (d : Fin 512) :
    idx_main_v51 (ix3 bb s d) = ix3 bb s (⟨0, Nat.one_pos⟩ : Fin 1) := by
  funext a
  match a with
  | ⟨0, _⟩ => rfl
  | ⟨1, _⟩ => rfl
  | ⟨2, _⟩ => rfl

theorem idx56 (bb : Fin 4) (s : Fin 2048) (d : Fin 512) :
    idx_main_v56 (ix3 bb s d) = ix3 bb s (⟨0, Nat.one_pos⟩ : Fin 1) := by
  funext a
  match a with
  | ⟨0, _⟩ => rfl
  | ⟨1, _⟩ => rfl
  | ⟨2, _⟩ => rfl

theorem idx5859 (bb : Fin 4) (s : Fin 2048) (d : Fin 512) : idx_main_v58 (idx_main_v59 (ix3 bb s d)) = ix1 d := by
  funext a
  match a with
  | ⟨0, _⟩ => rfl

theorem idx6162 (bb : Fin 4) (s : Fin 2048) (d : Fin 512) : idx_main_v61 (idx_main_v62 (ix3 bb s d)) = ix1 d := by
  funext a
  match a with
  | ⟨0, _⟩ => rfl

/-- The mean of a row: the sum from zero over the 512 features, divided by 512. -/
theorem mean_eq (bb : Fin 4) (s : Fin 2048) (z : Fin 1) :
    val_main_v43 (F := Ideal) x0 x1 x2 x3 x4 x5 x6 x7 x8 x9 x10 (ix3 bb s z) = Cert.Spec.meanRow (R bb s) := by
  rw [val_main_v43_apply, val_main_v41_apply, val_main_v40_apply, val_main_v42_apply, val_main_cst_4_apply,
    val_main_cst_3_apply]
  simp only [idx4041, resid_eq]
  show Ideal.div (Ideal.ofBits .f32 0x00000000#32 + _) _ = _
  rw [ofBits_zero, zero_add]
  rfl

/-- A row less its mean. -/
theorem cen_eq (bb : Fin 4) (s : Fin 2048) (d : Fin 512) :
    val_main_v45 (F := Ideal) x0 x1 x2 x3 x4 x5 x6 x7 x8 x9 x10 (ix3 bb s d) = R bb s d - Cert.Spec.meanRow (R bb s) := by
  rw [val_main_v45_apply, val_main_v44_apply, idx44, mean_eq, resid_eq]
  rfl

/-- The square of a row less its mean. -/
theorem sq_eq (bb : Fin 4) (s : Fin 2048) (d : Fin 512) :
    val_main_v46 (F := Ideal) x0 x1 x2 x3 x4 x5 x6 x7 x8 x9 x10 (ix3 bb s d)
      = (R bb s d - Cert.Spec.meanRow (R bb s)) * (R bb s d - Cert.Spec.meanRow (R bb s)) := by
  rw [val_main_v46_apply, cen_eq]
  rfl

theorem idx47 (bb : Fin 4) (s : Fin 2048) (k : Fin 512) : idx_main_v47 (ix2 bb s) k = ix3 bb s k := by
  funext a
  match a with
  | ⟨0, _⟩ => rfl
  | ⟨1, _⟩ => rfl
  | ⟨2, _⟩ => rfl

theorem idx48 (bb : Fin 4) (s : Fin 2048) (z : Fin 1) : idx_main_v48 (ix3 bb s z) = ix2 bb s := by
  funext a
  match a with
  | ⟨0, _⟩ => rfl
  | ⟨1, _⟩ => rfl

/-- The sum of the squares over a row, from zero. -/
theorem sumsq_eq (bb : Fin 4) (s : Fin 2048) :
    val_main_v47 (F := Ideal) x0 x1 x2 x3 x4 x5 x6 x7 x8 x9 x10 (ix2 bb s)
      = ∑ d : Fin 512, (R bb s d - Cert.Spec.meanRow (R bb s)) * (R bb s d - Cert.Spec.meanRow (R bb s)) := by
  rw [val_main_v47_apply, val_main_cst_5_apply]
  simp only [idx47, sq_eq]
  show Ideal.ofBits .f32 0x00000000#32 + _ = _
  rw [ofBits_zero, zero_add]

/-- The biased variance of a row. -/
theorem var_eq (bb : Fin 4) (s : Fin 2048) (z : Fin 1) :
    val_main_v50 (F := Ideal) x0 x1 x2 x3 x4 x5 x6 x7 x8 x9 x10 (ix3 bb s z) = Cert.Spec.varRow (R bb s) := by
  rw [val_main_v50_apply, val_main_v48_apply, idx48, sumsq_eq, val_main_v49_apply, val_main_cst_6_apply]
  rfl

/-- The reciprocal square root of the variance plus the small constant. -/
theorem rs_eq (bb : Fin 4) (s : Fin 2048) (z : Fin 1) :
    val_main_v55 (F := Ideal) x0 x1 x2 x3 x4 x5 x6 x7 x8 x9 x10 (ix3 bb s z)
      = Ideal.rsqrt (Cert.Spec.varRow (R bb s) + Ideal.ofBits .f32 0x3727C5AC#32) := by
  rw [val_main_v55_apply, val_main_v54_apply, var_eq, val_main_v53_apply, val_main_cst_7_apply]
  rfl

/-- A row less its mean, as the reference computes it the second time. -/
theorem cen2_eq (bb : Fin 4) (s : Fin 2048) (d : Fin 512) :
    val_main_v52 (F := Ideal) x0 x1 x2 x3 x4 x5 x6 x7 x8 x9 x10 (ix3 bb s d) = R bb s d - Cert.Spec.meanRow (R bb s) := by
  rw [val_main_v52_apply, val_main_v51_apply, idx51, mean_eq, resid_eq]
  rfl

/-- The normalised row. -/
theorem nrm_eq (bb : Fin 4) (s : Fin 2048) (d : Fin 512) :
    val_main_v57 (F := Ideal) x0 x1 x2 x3 x4 x5 x6 x7 x8 x9 x10 (ix3 bb s d)
      = (R bb s d - Cert.Spec.meanRow (R bb s)) * Ideal.rsqrt (Cert.Spec.varRow (R bb s) + Ideal.ofBits .f32 0x3727C5AC#32) := by
  rw [val_main_v57_apply, cen2_eq, val_main_v56_apply, idx56, rs_eq]
  rfl

/-- The layer norm of a row, with its gain and shift. -/
theorem out_eq (bb : Fin 4) (s : Fin 2048) (d : Fin 512) :
    val_main_v63 (F := Ideal) x0 x1 x2 x3 x4 x5 x6 x7 x8 x9 x10 x11 x12 (ix3 bb s d)
      = Cert.Spec.lnRow (R bb s) (fun d' => x11 (ix1 d')) (fun d' => x12 (ix1 d')) d := by
  rw [val_main_v63_apply, val_main_v60_apply, nrm_eq, val_main_v59_apply, val_main_v58_apply, idx5859,
    val_main_v62_apply, val_main_v61_apply, idx6162]
  rfl

/-- The reference's first result is the layer's result. -/
theorem layer_eq :
    val_main_v63 (F := Ideal) x0 x1 x2 x3 x4 x5 x6 x7 x8 x9 x10 x11 x12
      = Cert.Spec.layerOut x0 x1 x2 x3 x4 x5 x6 x7 x8 x9 x10 x11 x12 := by
  funext i
  obtain ⟨bb, s, d, rfl⟩ : ∃ (bb : Fin 4) (s : Fin 2048) (d : Fin 512), i = ix3 bb s d := ⟨i 0, i 1, i 2, eq_ix3 i⟩
  rw [out_eq]
  rfl

end LayerNorm

end Cert.RefSide

end
-- ==== Proof.lean ====
/-
  Multi-head attention with an output projection, a residual and a layer norm: a Pallas kernel of five
  pipelined regions against its jnp reference, equal over the extended reals.

  Both programs compute the same sums, products, maxima, exponentials, quotients and reciprocal square
  roots in the same order, up to layout: the kernel keeps per-head quantities head-major and tiles every
  array into blocks, contracts the output projection head by head, and multiplies the scores by 0.125
  where the reference divides by 8.  The value of each side is read as the specification's function of
  the thirteen arguments (Proof/Spec.lean): the kernel's from its regions' blocks, the reference's from
  its operations one at a time; the two runs then end in the same arrays.  No step uses that the
  inputs are finite.
-/
import proofs.«123167_j8134668058670_2_alg».proof.Defs
import proofs.«123167_j8134668058670_2_alg».proof.Proof.Gen.Kernel
import proofs.«123167_j8134668058670_2_alg».proof.Proof.Gen.Kernel.Frame
import proofs.«123167_j8134668058670_2_alg».proof.Proof.Gen.KernelIdeal
import proofs.«123167_j8134668058670_2_alg».proof.Proof.Gen.KernelIdeal.Frame
import proofs.«123167_j8134668058670_2_alg».proof.Proof.Gen.ReferenceIdeal
import proofs.«123167_j8134668058670_2_alg».proof.Proof.Gen.ReferenceIdeal.Run
import proofs.«123167_j8134668058670_2_alg».proof.Proof.Gen.ReferenceIdeal.Read
import proofs.«123167_j8134668058670_2_alg».proof.Proof.Gen.Pre_finite_inputs
import proofs.«123167_j8134668058670_2_alg».proof.Proof.KernelValue
import proofs.«123167_j8134668058670_2_alg».proof.Proof.RefAttn
import proofs.«123167_j8134668058670_2_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the layer's result and the
    attention probabilities at the specification's functions of the arguments. -/
theorem algebraic : Cert.algebraic_KernelIdeal_ReferenceIdeal := by
  intro m ρ m' ρ' _ hagree
  refine ⟨_, _, Cert.KValue.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12⟩ := hagree c
    rw [Cert.ReferenceIdeal.Read.val_main_v63_eq, Cert.RefSide.layer_eq, a0, a1, a2, a3, a4, a5, a6, a7, a8, a9, a10, a11, a12]
  · obtain ⟨a0, a1, a2, a3, a4, a5, a6, a7, a8, a9, a10, a11, a12⟩ := hagree c
    rw [Cert.ReferenceIdeal.Read.val_main_v64_eq, Cert.RefSide.attn_eq, a0, a1, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
